-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "pi_f32_over_180" .f32 0x3C8EFA35#32 ((6588397 / 377487360 : ℝ) : EReal)
  ∧ IdealRules.named_const.Statement Cert.KernelIdeal.κ "pi_f32_over_180" .f32 0x3C8EFA35#32 ((6588397 / 377487360 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel

variable [Facts]

def fn {F : FTy → Type} [FloatOps F] (main_arg0 : FVec F S4000000x5 .f32) (main_arg1 : FVec F S4000000x5 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  main_v8
-- ==== Kernel.lean ====
abbrev S4000000x5 : Shape := ⟨2, ![4000000, 5]⟩
abbrev S4000000 : Shape := ⟨1, ![4000000]⟩
abbrev S65536x5 : Shape := ⟨2, ![65536, 5]⟩
abbrev S65536 : Shape := ⟨1, ![65536]⟩
abbrev S65536x2 : Shape := ⟨2, ![65536, 2]⟩
abbrev S65536x1 : Shape := ⟨2, ![65536, 1]⟩

abbrev nBuf : Space → Nat
  | .hbm => 3
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S4000000, .f32⟩
  | .local _ .vmem, ⟨0, _⟩ => ⟨S65536x5, .f32⟩
  | .local _ .vmem, ⟨1, _⟩ => ⟨S65536x5, .f32⟩
  | .local _ .vmem, ⟨2, _⟩ => ⟨S65536x5, .f32⟩
  | .local _ .vmem, ⟨3, _⟩ => ⟨S65536x5, .f32⟩
  | .local _ .vmem, ⟨4, _⟩ => ⟨S65536, .f32⟩
  | .local _ .vmem, ⟨5, _⟩ => ⟨S65536, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S65536x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S65536x5_S65536x5_0_0 : ∀ a, (![0, 0] : Fin 2 → Nat) a + S65536x5.size a ≤ S65536x5.size a
  h_S65536x5 : 0 < S65536x5.numel
  slices_S65536x5_o0_0_S65536x2 : S65536x5.Slices ![0, 0] S65536x2
  slices_S65536x5_o0_2_S65536x2 : S65536x5.Slices ![0, 2] S65536x2
  slices_S65536x5_o0_4_S65536x1 : S65536x5.Slices ![0, 4] S65536x1
  slices_S65536x2_o0_0_S65536x1 : S65536x2.Slices ![0, 0] S65536x1
  slices_S65536x2_o0_1_S65536x1 : S65536x2.Slices ![0, 1] S65536x1
  reduces_S65536x2_S65536 : S65536x2.Reduces [1] S65536
  shapeCasts_S65536_S65536x1 : S65536.ShapeCasts S65536x1
  shapeCasts_S65536x1_S65536 : S65536x1.ShapeCasts S65536
  inb_S65536_S65536_0 : ∀ a, (![0] : Fin 1 → Nat) a + S65536.size a ≤ S65536.size a
  h_S65536 : 0 < S65536.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S65536x5.size a < S4000000x5.size a
  hwx0_0 : ∀ i : grid0.Coords, EltTy.bits .f32 = 32 ∨ (Rect.unit (s := S4000000x5) (fun a => cc0_transform_0 i a * S65536x5.size a) (fun a => (Pipeline.Clip.of (cc0_transform_0 i a) (S65536x5.size a) (S4000000x5.size a)).extent (S65536x5.size a)) fun a => Pipeline.Clip.inb (Pipeline.Clip.ok_of (hstart0_0 i a))).WholeWords (EltTy.packing .f32)
  hwxs0_0 : ∀ i : grid0.Coords, EltTy.bits .f32 = 32 ∨ (Rect.unit (s := S65536x5) (fun _ => 0) (fun a => (Pipeline.Clip.of (cc0_transform_0 i a) (S65536x5.size a) (S4000000x5.size a)).extent (S65536x5.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S65536x5.size a < S4000000x5.size a
  hwx0_1 : ∀ i : grid0.Coords, EltTy.bits .f32 = 32 ∨ (Rect.unit (s := S4000000x5) (fun a => cc0_transform_1 i a * S65536x5.size a) (fun a => (Pipeline.Clip.of (cc0_transform_1 i a) (S65536x5.size a) (S4000000x5.size a)).extent (S65536x5.size a)) fun a => Pipeline.Clip.inb (Pipeline.Clip.ok_of (hstart0_1 i a))).WholeWords (EltTy.packing .f32)
  hwxs0_1 : ∀ i : grid0.Coords, EltTy.bits .f32 = 32 ∨ (Rect.unit (s := S65536x5) (fun _ => 0) (fun a => (Pipeline.Clip.of (cc0_transform_1 i a) (S65536x5.size a) (S4000000x5.size a)).extent (S65536x5.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S65536.size a < S4000000.size a
  hwx0_2 : ∀ i : grid0.Coords, EltTy.bits .f32 = 32 ∨ (Rect.unit (s := S4000000) (fun a => cc0_transform_2 i a * S65536.size a) (fun a => (Pipeline.Clip.of (cc0_transform_2 i a) (S65536.size a) (S4000000.size a)).extent (S65536.size a)) fun a => Pipeline.Clip.inb (Pipeline.Clip.ok_of (hstart0_2 i a))).WholeWords (EltTy.packing .f32)
  hwxs0_2 : ∀ i : grid0.Coords, EltTy.bits .f32 = 32 ∨ (Rect.unit (s := S65536) (fun _ => 0) (fun a => (Pipeline.Clip.of (cc0_transform_2 i a) (S65536.size a) (S4000000.size a)).extent (S65536.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S65536x5.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S65536x5.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S65536.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000x2 : Shape := ⟨2, ![4000000, 2]⟩
abbrev S_ : Shape := ⟨0, ![]⟩
abbrev S4000000x1 : Shape := ⟨2, ![4000000, 1]⟩
abbrev S4000000 : Shape := ⟨1, ![4000000]⟩

abbrev nBuf : Space → Nat
  | .hbm => 189
  | .vmem => 0
  | .smem => 0
  | _ => 0

abbrev hbmTy0_0 (i : Nat) : BufTy := match i % 128 with
  | 0 => ⟨S4000000x5, .f32⟩
  | 1 => ⟨S4000000x5, .f32⟩
  | 2 => ⟨S4000000x2, .f32⟩
  | 3 => ⟨S4000000x2, .f32⟩
  | 4 => ⟨S_, .f32⟩
  | 5 => ⟨S_, .f32⟩
  | 6 => ⟨S_, .f32⟩
  | 7 => ⟨S4000000x2, .f32⟩
  | 8 => ⟨S4000000x2, .f32⟩
  | 9 => ⟨S_, .f32⟩
  | 10 => ⟨S4000000x2, .f32⟩
  | 11 => ⟨S4000000x2, .f32⟩
  | 12 => ⟨S4000000x1, .f32⟩
  | 13 => ⟨S4000000, .f32⟩
  | 14 => ⟨S_, .f32⟩
  | 15 => ⟨S4000000, .f32⟩
  | 16 => ⟨S4000000, .f32⟩
  | 17 => ⟨S_, .f32⟩
  | 18 => ⟨S4000000, .f32⟩
  | 19 => ⟨S4000000, .f32⟩
  | 20 => ⟨S4000000, .f32⟩
  | 21 => ⟨S4000000, .f32⟩
  | 22 => ⟨S4000000x1, .f32⟩
  | 23 => ⟨S4000000, .f32⟩
  | 24 => ⟨S_, .f32⟩
  | 25 => ⟨S4000000, .f32⟩
  | 26 => ⟨S4000000, .f32⟩
  | 27 => ⟨S4000000, .f32⟩
  | 28 => ⟨S4000000x1, .f32⟩
  | 29 => ⟨S4000000, .f32⟩
  | 30 => ⟨S_, .f32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S4000000, .f32⟩
  | 43 => ⟨S4000000, .f32⟩
  | 44 => ⟨S4000000, .f32⟩
  | 45 => ⟨S4000000, .f32⟩
  | 46 => ⟨S4000000, .f32⟩
  | 47 => ⟨S4000000x2, .f32⟩
  | 48 => ⟨S4000000x2, .f32⟩
  | 49 => ⟨S_, .f32⟩
  | 50 => ⟨S_, .f32⟩
  | 51 => ⟨S_, .f32⟩
  | 52 => ⟨S4000000x2, .f32⟩
  | 53 => ⟨S4000000x2, .f32⟩
  | 54 => ⟨S_, .f32⟩
  | 55 => ⟨S4000000x2, .f32⟩
  | 56 => ⟨S4000000x2, .f32⟩
  | 57 => ⟨S4000000x1, .f32⟩
  | 58 => ⟨S4000000, .f32⟩
  | 59 => ⟨S_, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S4000000, .f32⟩
  | 66 => ⟨S4000000, .f32⟩
  | 67 => ⟨S4000000x1, .f32⟩
  | 68 => ⟨S4000000, .f32⟩
  | 69 => ⟨S_, .f32⟩
  | 70 => ⟨S4000000, .f32⟩
  | 71 => ⟨S4000000, .f32⟩
  | 72 => ⟨S4000000, .f32⟩
  | 73 => ⟨S4000000x1, .f32⟩
  | 74 => ⟨S4000000, .f32⟩
  | 75 => ⟨S_, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S4000000, .f32⟩
  | 88 => ⟨S4000000, .f32⟩
  | 89 => ⟨S4000000, .f32⟩
  | 90 => ⟨S4000000, .f32⟩
  | 91 => ⟨S4000000, .f32⟩
  | 92 => ⟨S4000000x2, .f32⟩
  | 93 => ⟨S4000000x2, .f32⟩
  | 94 => ⟨S_, .f32⟩
  | 95 => ⟨S4000000x2, .f32⟩
  | 96 => ⟨S4000000x2, .i1⟩
  | 97 => ⟨S_, .f32⟩
  | 98 => ⟨S4000000x2, .f32⟩
  | 99 => ⟨S4000000x2, .f32⟩
  | 100 => ⟨S4000000x2, .f32⟩
  | 101 => ⟨S_, .f32⟩
  | 102 => ⟨S4000000x2, .f32⟩
  | 103 => ⟨S4000000x2, .f32⟩
  | 104 => ⟨S_, .f32⟩
  | 105 => ⟨S4000000x2, .f32⟩
  | 106 => ⟨S4000000x2, .f32⟩
  | 107 => ⟨S4000000x2, .f32⟩
  | 108 => ⟨S_, .f32⟩
  | 109 => ⟨S4000000, .f32⟩
  | 110 => ⟨S4000000, .f32⟩
  | 111 => ⟨S4000000, .f32⟩
  | 112 => ⟨S4000000, .f32⟩
  | 113 => ⟨S4000000, .f32⟩
  | 114 => ⟨S_, .f32⟩
  | 115 => ⟨S4000000, .f32⟩
  | 116 => ⟨S4000000, .f32⟩
  | 117 => ⟨S4000000, .f32⟩
  | 118 => ⟨S4000000, .f32⟩
  | 119 => ⟨S4000000, .f32⟩
  | 120 => ⟨S4000000, .f32⟩
  | 121 => ⟨S_, .f32⟩
  | 122 => ⟨S4000000, .f32⟩
  | 123 => ⟨S4000000, .f32⟩
  | 124 => ⟨S4000000, .f32⟩
  | 125 => ⟨S4000000, .f32⟩
  | 126 => ⟨S4000000, .f32⟩
  | 127 => ⟨S4000000, .f32⟩
  | _ => ⟨S4000000x5, .f32⟩

abbrev hbmTy0_1 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .f32⟩
  | 9 => ⟨S4000000, .f32⟩
  | 10 => ⟨S4000000, .f32⟩
  | 11 => ⟨S4000000, .f32⟩
  | 12 => ⟨S4000000, .f32⟩
  | 13 => ⟨S4000000, .f32⟩
  | 14 => ⟨S4000000, .f32⟩
  | 15 => ⟨S4000000, .f32⟩
  | 16 => ⟨S4000000, .f32⟩
  | 17 => ⟨S4000000, .f32⟩
  | 18 => ⟨S4000000, .f32⟩
  | 19 => ⟨S4000000, .f32⟩
  | 20 => ⟨S4000000, .f32⟩
  | 21 => ⟨S4000000, .f32⟩
  | 22 => ⟨S4000000, .f32⟩
  | 23 => ⟨S4000000, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S_, .f32⟩
  | 41 => ⟨S4000000, .f32⟩
  | 42 => ⟨S4000000, .f32⟩
  | 43 => ⟨S4000000, .i1⟩
  | 44 => ⟨S_, .f32⟩
  | 45 => ⟨S4000000, .f32⟩
  | 46 => ⟨S4000000, .f32⟩
  | 47 => ⟨S4000000, .f32⟩
  | 48 => ⟨S4000000, .f32⟩
  | 49 => ⟨S_, .f32⟩
  | 50 => ⟨S4000000, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S4000000, .f32⟩
  | 57 => ⟨S_, .f32⟩
  | 58 => ⟨S_, .f32⟩
  | 59 => ⟨S4000000, .f32⟩
  | 60 => ⟨S4000000, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_18 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_19 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_20 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_21 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_22 : Ref sig .tc := ⟨.hbm, 185, rfl⟩
abbrev main_call4_v0 : Ref sig .tc := ⟨.hbm, 186, rfl⟩
abbrev main_call4_v1 : Ref sig .tc := ⟨.hbm, 187, rfl⟩
abbrev main_v150 : Ref sig .tc := ⟨.hbm, 188, rfl⟩

abbrev nD : Nat := 1
abbrev τ : Topo := Topo.v7x

variable {F : FTy → Type} [FloatOps F]

class Facts₀ : Prop where
  slices_S4000000x5_S4000000x2_0_0 : S4000000x5.Slices ![0, 0] S4000000x2
  slices_S4000000x5_S4000000x2_0_2 : S4000000x5.Slices ![0, 2] S4000000x2
  bcast_S_S4000000x2 : S_.BroadcastsInDim S4000000x2 (![] : Fin 0 → Fin S4000000x2.rank)
  slices_S4000000x5_S4000000x1_0_4 : S4000000x5.Slices ![0, 4] S4000000x1
  shapeCasts_S4000000x1_S4000000 : S4000000x1.ShapeCasts S4000000
  bcast_S_S4000000 : S_.BroadcastsInDim S4000000 (![] : Fin 0 → Fin S4000000.rank)
  slices_S4000000x2_S4000000x1_0_0 : S4000000x2.Slices ![0, 0] S4000000x1
  slices_S4000000x2_S4000000x1_0_1 : S4000000x2.Slices ![0, 1] S4000000x1
  reducesTo_S4000000x2_S4000000_d1 : S4000000x2.ReducesTo [1] S4000000
  h_S_ : 0 < S_.numel

variable [Facts₀]

class Facts : Prop extends Facts₀ where

variable [Facts]
-- ==== Proof.KernelBodyFn.lean ====
/-
  What the kernel's body computes at any float instance, as ONE pure function of the two input blocks it loads.

  The body loads the two (65536 × 5) blocks whole, computes, and stores one (65536) block whole.  The generated skeleton
  names the arithmetic between the loads and the store as payloads, cut where the printed function is cut into parts;
  `bodyOut` composes them along the body's data flow: the covariance entries of the predicted boxes (`sp11` … ) and the
  cosine, sine and clipped extents of the target boxes, then the smooth-L1 term, the two determinant roots, the entries
  and determinant of the summed covariance, the ratio term, and last the clamp at zero flattened to one lane per row.
-/
import proofs.«136504_j15762529976491_1_alg».proof.Proof.Gen.Kernel.Skeleton

noncomputable section

namespace Cert.Kernel.Body

open Idealize.ShloMosaic Idealize.SL.Sem Cert.Kernel Cert.Kernel.Gen

variable {F : FTy → Type} [FloatOps F]

/-- The value the body stores, from the two blocks it loaded: `x0` the predicted boxes' block, `x1` the targets'. -/
def bodyOut (x0 x1 : Vec F S65536x5 .f32) : FVec F S65536 .f32 :=
  k0_pay1
    (k0_pay31 (k0_pay9 x0) (k0_pay10 x0) (k0_pay11 x0)
      (k0_pay24 (k0_pay2 x0) (k0_pay12 x1))
      (k0_pay25 (k0_pay9 x0) (k0_pay10 x0) (k0_pay11 x0))
      (k0_pay26 (k0_pay15 x1) (k0_pay16 x1) (k0_pay17 x1) (k0_pay18 x1))
      (k0_pay27 (k0_pay9 x0) (k0_pay15 x1) (k0_pay16 x1) (k0_pay17 x1) (k0_pay18 x1))
      (k0_pay28 (k0_pay10 x0) (k0_pay15 x1) (k0_pay16 x1) (k0_pay17 x1) (k0_pay18 x1))
      (k0_pay29 (k0_pay11 x0) (k0_pay15 x1) (k0_pay16 x1) (k0_pay17 x1) (k0_pay18 x1))
      (k0_pay30 (k0_pay9 x0) (k0_pay10 x0) (k0_pay11 x0) (k0_pay15 x1) (k0_pay16 x1) (k0_pay17 x1) (k0_pay18 x1)))
    (Scalar.ofBits .f32 0x00000000#32)

end Cert.Kernel.Body

end
-- ==== Proof.KernelBody.lean ====
/-
  The kernel's body as a triple, at any float instance: on whole staging buffers holding `x0`, `x1` (the two input blocks) and anything
  (the output's), it runs to the same two and the output's buffer holding `bodyOut x0 x1` — the body loads the two blocks
  whole, computes, and stores one whole block.
-/
import proofs.«136504_j15762529976491_1_alg».proof.Proof.Gen.Kernel.Frame
import proofs.«136504_j15762529976491_1_alg».proof.Proof.KernelBodyFn
import Idealize.ShloMosaic.Lib.Pipeline.FrameBody
import Idealize.ShloMosaic.Lib.Pipeline.Value
import Idealize.ShloMosaic.Lib.Tactic

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole input block and the whole output block, as the rectangles the body's accesses name. -/
abbrev rIn : Rect S65536x5 := Rect.unit (s := S65536x5) ![0, 0] S65536x5.size inb_S65536x5_S65536x5_0_0
abbrev rOut : Rect S65536 := Rect.unit (s := S65536) ![0] S65536.size inb_S65536_S65536_0

/-- The output's staging buffer after the body: its one store, of the body's function of the two loads. -/
def out2 (x0 x1 : Vec F S65536x5 .f32) : Vec F S65536 .f32 :=
  View.canon [⟨rOut, bodyOut (View.ld x0 rIn) (View.ld x1 rIn)⟩]

/-- The one store covers the buffer. -/
theorem cover2 (p0 : Vec F S65536 .f32) (y : S65536.Idx) :
    ∃ pc ∈ ([⟨rOut, p0⟩] : List (View.Piece (Elt F) S65536 .f32)), y ∈ pc.1.set :=
  View.cover_of_tiled [⟨rOut, p0⟩] S65536.size (by rfl) y

set_option maxHeartbeats 4000000 in
/-- The body's triple. -/
theorem sound_kernel (c : Dev nD) (E : Set ℕ) (i : grid0.Coords)
    (arg1 : Memref sig .tc .vmem S65536x5 .f32) (harg1 : arg1.IsWhole) (arg2 : Memref sig .tc .vmem S65536x5 .f32) (harg2 : arg2.IsWhole)
    (arg3 : Memref sig .tc .vmem S65536 .f32) (harg3 : arg3.IsWhole)
    (x0 : Vec F S65536x5 .f32) (x1 : Vec F S65536x5 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__kfiou_kernel i arg1 harg1 arg2 harg2 arg3 harg3) K := by
  simp only [cc0__kfiou_kernel_eq_skeleton]; unfold cc0__kfiou_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The accesses are the whole buffers at offset zero, so the stored value is the body's function of the buffers' contents. -/
theorem out2_eq (x0 x1 : Vec F S65536x5 .f32) : out2 x0 x1 = bodyOut x0 x1 := by
  have hz2 : (![0, 0] : Fin 2 → Nat) = fun _ => 0 := funext fun a => by fin_cases a <;> rfl
  have hz1 : (![0] : Fin 1 → Nat) = fun _ => 0 := funext fun a => by fin_cases a; rfl
  unfold out2
  rw [View.canon_unit_zero hz1, View.ld_unit_zero (S := S65536x5) hz2, View.ld_unit_zero (S := S65536x5) hz2]

end Cert.Kernel.FrameProof

end
-- ==== Proof.KernelFrame.lean ====
/-
  The word-level kernel's frame: it runs to the end, faults nowhere, and leaves its two argument arrays unchanged.

  Nothing is claimed of the result array here, so the proof data names no staging contents: every window is handed to
  the body holding anything and taken back holding anything (the body's triple holds at any contents of the two inputs'
  buffers).  The inputs' arrays are only ever read by the pipeline's fetches, so they end as the region found them.
  (At bit patterns the lane sum is one word function of its whole operand; what the last point's overhanging rows
  contribute to it is not stated, and this frame does not need it.)
-/
import proofs.«136504_j15762529976491_1_alg».proof.Proof.KernelBody
import Idealize.ShloMosaic.Lib.Pipeline.Frame

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, the class's invariant, full shares; the staging contents it
    names are never read (every window is forgotten below). -/
def dats (_ : Fin 1) (c : Dev nD) : Dat τ (Elt F) Unit ℕ (UR sig nD τ) ℕ cfg0 c where
  A w := V m c (Pipeline.arrRef spec0 w)
  after w _ := match w with
    | ⟨0, _⟩ => fun _ => Scalar.ofBits .f32 0#32
    | ⟨1, _⟩ => fun _ => Scalar.ofBits .f32 0#32
    | ⟨2, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

/-- Every window forgotten. -/
abbrev fgt : Fin cfg0.W → Bool := fun _ => true

set_option maxHeartbeats 2000000 in
/-- The body obligation with every window forgotten: the body's triple at whatever the two inputs' buffers hold. -/
theorem body_obligation (c : Dev nD) :
    BodyObligationLoose (dats m 0 c) (defs₀ (F := F)) Variants.none () Set.univ fgt := fun t => by
  rw [bigSep_W0]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (sound_kernel (F := F) c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

set_option backward.isDefEq.respectTransparency.types false in
/-- Every weakly fair execution of @main terminates; every array of the pipeline ends at contents the relational data
    allow (an input's: its contents at the region's entry), every other unscoped buffer as the region found it. -/
theorem run_main : θ_run defs (onTc (τ := τ) (main (F := F))) (s₀ m ρ)
    (RDat.FramePost cfg0 (fun c => (dats m 0 c).toRForget fgt) (V m)) :=
  RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [((dats m 0 c).toRForget fgt).ArrAt_in 0 rfl] at h0
    rw [((dats m 0 c).toRForget fgt).ArrAt_in 1 rfl] at h1
    exact ⟨h0.trans ((A_eq m c 0).trans (V_main_arg0 m c)), h1.trans ((A_eq m c 1).trans (V_main_arg1 m c))⟩)
    (run_main m ρ)

end Cert.Kernel.FrameProof

end
-- ==== Proof.KerBodyFn.lean ====
/-
  What the idealized kernel's body computes, as ONE pure function of the two input blocks it loads.

  The body loads the two (65536 × 5) blocks whole, computes, and stores one (65536) block whole.  The generated skeleton
  names the arithmetic between the loads and the store as payloads, cut where the printed function is cut into parts;
  `bodyOut` composes them along the body's data flow: the covariance entries of the predicted boxes (`sp11` … ) and the
  cosine, sine and clipped extents of the target boxes, then the smooth-L1 term, the two determinant roots, the entries
  and determinant of the summed covariance, the ratio term, and last the clamp at zero flattened to one lane per row.
-/
import proofs.«136504_j15762529976491_1_alg».proof.Proof.Gen.KernelIdeal.Skeleton

noncomputable section

namespace Cert.KernelIdeal.Body

open Idealize.ShloMosaic Idealize.SL.Sem Cert.KernelIdeal Cert.KernelIdeal.Gen

variable {F : FTy → Type} [FloatOps F] [Named F]

/-- The value the body stores, from the two blocks it loaded: `x0` the predicted boxes' block, `x1` the targets'. -/
def bodyOut (x0 x1 : Vec F S65536x5 .f32) : FVec F S65536 .f32 :=
  k0_pay1
    (k0_pay31 (k0_pay9 x0) (k0_pay10 x0) (k0_pay11 x0)
      (k0_pay24 (k0_pay2 x0) (k0_pay12 x1))
      (k0_pay25 (k0_pay9 x0) (k0_pay10 x0) (k0_pay11 x0))
      (k0_pay26 (k0_pay15 x1) (k0_pay16 x1) (k0_pay17 x1) (k0_pay18 x1))
      (k0_pay27 (k0_pay9 x0) (k0_pay15 x1) (k0_pay16 x1) (k0_pay17 x1) (k0_pay18 x1))
      (k0_pay28 (k0_pay10 x0) (k0_pay15 x1) (k0_pay16 x1) (k0_pay17 x1) (k0_pay18 x1))
      (k0_pay29 (k0_pay11 x0) (k0_pay15 x1) (k0_pay16 x1) (k0_pay17 x1) (k0_pay18 x1))
      (k0_pay30 (k0_pay9 x0) (k0_pay10 x0) (k0_pay11 x0) (k0_pay15 x1) (k0_pay16 x1) (k0_pay17 x1) (k0_pay18 x1)))
    (Scalar.ofBits .f32 0x00000000#32)

end Cert.KernelIdeal.Body

end
-- ==== Proof.KerBody.lean ====
/-
  The idealized kernel's body as a triple: on whole staging buffers holding `x0`, `x1` (the two input blocks) and anything
  (the output's), it runs to the same two and the output's buffer holding `bodyOut x0 x1` — the body loads the two blocks
  whole, computes, and stores one whole block.
-/
import proofs.«136504_j15762529976491_1_alg».proof.Proof.Gen.KernelIdeal.Frame
import proofs.«136504_j15762529976491_1_alg».proof.Proof.KerBodyFn
import Idealize.ShloMosaic.Lib.Pipeline.FrameBody
import Idealize.ShloMosaic.Lib.Pipeline.Value
import Idealize.ShloMosaic.Lib.Tactic

set_option maxRecDepth 16384

noncomputable section

namespace Cert.KernelIdeal.FrameProof

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The whole input block and the whole output block, as the rectangles the body's accesses name. -/
abbrev rIn : Rect S65536x5 := Rect.unit (s := S65536x5) ![0, 0] S65536x5.size inb_S65536x5_S65536x5_0_0
abbrev rOut : Rect S65536 := Rect.unit (s := S65536) ![0] S65536.size inb_S65536_S65536_0

/-- The output's staging buffer after the body: its one store, of the body's function of the two loads. -/
def out2 (x0 x1 : Vec F S65536x5 .f32) : Vec F S65536 .f32 :=
  View.canon [⟨rOut, bodyOut (View.ld x0 rIn) (View.ld x1 rIn)⟩]

/-- The one store covers the buffer. -/
theorem cover2 (p0 : Vec F S65536 .f32) (y : S65536.Idx) :
    ∃ pc ∈ ([⟨rOut, p0⟩] : List (View.Piece (Elt F) S65536 .f32)), y ∈ pc.1.set :=
  View.cover_of_tiled [⟨rOut, p0⟩] S65536.size (by rfl) y

set_option maxHeartbeats 4000000 in
/-- The body's triple. -/
theorem sound_kernel (c : Dev nD) (E : Set ℕ) (i : grid0.Coords)
    (arg1 : Memref sig .tc .vmem S65536x5 .f32) (harg1 : arg1.IsWhole) (arg2 : Memref sig .tc .vmem S65536x5 .f32) (harg2 : arg2.IsWhole)
    (arg3 : Memref sig .tc .vmem S65536 .f32) (harg3 : arg3.IsWhole)
    (x0 : Vec F S65536x5 .f32) (x1 : Vec F S65536x5 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__kfiou_kernel i arg1 harg1 arg2 harg2 arg3 harg3) K := by
  simp only [cc0__kfiou_kernel_eq_skeleton]; unfold cc0__kfiou_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The accesses are the whole buffers at offset zero, so the stored value is the body's function of the buffers' contents. -/
theorem out2_eq (x0 x1 : Vec F S65536x5 .f32) : out2 x0 x1 = bodyOut x0 x1 := by
  have hz2 : (![0, 0] : Fin 2 → Nat) = fun _ => 0 := funext fun a => by fin_cases a <;> rfl
  have hz1 : (![0] : Fin 1 → Nat) = fun _ => 0 := funext fun a => by fin_cases a; rfl
  unfold out2
  rw [View.canon_unit_zero hz1, View.ld_unit_zero (S := S65536x5) hz2, View.ld_unit_zero (S := S65536x5) hz2]

end Cert.KernelIdeal.FrameProof

end
-- ==== Proof.RowSpec.lean ====
/-
  The loss of ONE row, as a function on the extended reals.

  A row of each input is an oriented box (x, y, w, h, angle in degrees).  Its covariance is R · diag(a, b) · Rᵀ with
  a = (w/2)², b = (h/2)² (w and h clipped to [1e-7, 1e7]) and R the rotation by the angle in radians:
      s11 = a·c² + b·s²,   s12 = (a − b)·s·c,   s22 = a·s² + b·c²        (c, s the cosine and sine).
  The loss of the row is  max 0 (smoothL1(x, y) + 1 − Vb / (Vb_p + Vb_t − Vb + eps)),  where Vb_p, Vb_t = 4·√det of the
  two covariances and Vb = 4·√det of  Σp − K·Σp,  K = Σp · (Σp + Σt)⁻¹ written out entry by entry with the closed 2×2 inverse.

  The two programs compute exactly these operations in exactly this order; they differ only in how the angle in radians is
  obtained from the angle in degrees, so the two angles are ARGUMENTS here (`rp`, `rt`).  Everything is stated over the
  literal f32 words both programs carry, read as the extended reals they denote.
-/
import Idealize.ShloMosaic.PureOps.Ideal

noncomputable section

namespace Cert.BoxLoss

open Idealize.ShloMosaic

/-! ## The literal words -/

/-- 1e-7 and 1e7 as f32: the bounds the extents are clipped to. -/
abbrev TINY : EReal := Ideal.ofBits .f32 0x33D6BF95#32
abbrev BIG : EReal := Ideal.ofBits .f32 0x4B189680#32
/-- 0.5, 4, 1, 0 as f32 (exact). -/
abbrev HALF : EReal := Ideal.ofBits .f32 0x3F000000#32
abbrev FOUR : EReal := Ideal.ofBits .f32 0x40800000#32
abbrev ONE : EReal := Ideal.ofBits .f32 0x3F800000#32
abbrev ZERO : EReal := Ideal.ofBits .f32 0x00000000#32
/-- 1/9 and 1/18 as f32: the smooth-L1 threshold and half of it. -/
abbrev BETA : EReal := Ideal.ofBits .f32 0x3DE38E39#32
abbrev HBETA : EReal := Ideal.ofBits .f32 0x3D638E39#32
/-- 1e-6 as f32: the guard in the ratio's denominator. -/
abbrev EPS : EReal := Ideal.ofBits .f32 0x358637BD#32

/-! ## The pieces -/

/-- An extent clipped to [1e-7, 1e7]. -/
def clip (x : EReal) : EReal := min BIG (max TINY x)

/-- (x/2)² of a clipped extent. -/
def halfSq (x : EReal) : EReal := (HALF * clip x) * (HALF * clip x)

/-- The covariance entries of a box with extents `w`, `h` and angle `r` (radians). -/
def s11 (w h r : EReal) : EReal := ((halfSq w * Ideal.cos r) * Ideal.cos r) + ((halfSq h * Ideal.sin r) * Ideal.sin r)
def s12 (w h r : EReal) : EReal := ((halfSq w - halfSq h) * Ideal.sin r) * Ideal.cos r
def s22 (w h r : EReal) : EReal := ((halfSq w * Ideal.sin r) * Ideal.sin r) + ((halfSq h * Ideal.cos r) * Ideal.cos r)

/-- Smooth L1 of one coordinate difference: quadratic below 1/9, linear above. -/
def smooth (x y : EReal) : EReal :=
  Scalar.select (Ideal.cmp .olt (FloatOps.absf (F := Ideal) (φ := .f32) (x - y)) BETA)
    (Ideal.div ((HALF * FloatOps.absf (F := Ideal) (φ := .f32) (x - y)) * FloatOps.absf (F := Ideal) (φ := .f32) (x - y)) BETA)
    (FloatOps.absf (F := Ideal) (φ := .f32) (x - y) - HBETA)

/-- 4·√(a·d − b·c): four times the root of a 2×2 determinant. -/
def vol (a b c d : EReal) : EReal := FOUR * Ideal.sqrt (a * d - b * c)

/-- The determinant of Σp + Σt. -/
def detU (p11 p12 p22 t11 t12 t22 : EReal) : EReal := ((p11 + t11) * (p22 + t22)) - ((p12 + t12) * (p12 + t12))

/-- The entries of K = Σp · (Σp + Σt)⁻¹, the inverse in closed form ([[u22, −u12], [−u12, u11]] / det). -/
def k11 (p11 p12 p22 t11 t12 t22 : EReal) : EReal :=
  Ideal.div ((p11 * (p22 + t22)) - (p12 * (p12 + t12))) (detU p11 p12 p22 t11 t12 t22)
def k12 (p11 p12 p22 t11 t12 t22 : EReal) : EReal :=
  Ideal.div (((-p11) * (p12 + t12)) + (p12 * (p11 + t11))) (detU p11 p12 p22 t11 t12 t22)
def k21 (p11 p12 p22 t11 t12 t22 : EReal) : EReal :=
  Ideal.div ((p12 * (p22 + t22)) - (p22 * (p12 + t12))) (detU p11 p12 p22 t11 t12 t22)
def k22 (p11 p12 p22 t11 t12 t22 : EReal) : EReal :=
  Ideal.div (((-p12) * (p12 + t12)) + (p22 * (p11 + t11))) (detU p11 p12 p22 t11 t12 t22)

/-- 4·√det(Σp − K·Σp), both off-diagonal entries kept; where the root is junk the value is kept as it is (on the
    extended reals a value never differs from itself, so the guard selects the value). -/
def volS (p11 p12 p22 ka kb kc kd : EReal) : EReal :=
  FOUR * Ideal.sqrt (((p11 - ((ka * p11) + (kb * p12))) * (p22 - ((kc * p12) + (kd * p22))))
    - ((p12 - ((ka * p12) + (kb * p22))) * (p12 - ((kc * p11) + (kd * p12)))))

def guard (v : EReal) : EReal := Scalar.select (Ideal.cmp .one v v) ZERO v

/-- 1 − Vb / (Vb_p + Vb_t − Vb + eps). -/
def ratioLoss (vb vp vt : EReal) : EReal := ONE - Ideal.div vb ((((vp + vt) - vb)) + EPS)

/-- The covariance part of a row's loss from the six covariance entries. -/
def covLoss (p11 p12 p22 t11 t12 t22 : EReal) : EReal :=
  ratioLoss
    (guard (volS p11 p12 p22 (k11 p11 p12 p22 t11 t12 t22) (k12 p11 p12 p22 t11 t12 t22)
      (k21 p11 p12 p22 t11 t12 t22) (k22 p11 p12 p22 t11 t12 t22)))
    (vol p11 p12 p12 p22) (vol t11 t12 t12 t22)

/-! ## The row -/

/-- The loss of a row with predicted box `p`, target box `t` (entries x, y, w, h, angle) and the two angles in radians
    `rp`, `rt`. -/
def rowLoss (rp rt : EReal) (p t : Fin 5 → EReal) : EReal :=
  max ZERO
    ((smooth (p 0) (t 0) + smooth (p 1) (t 1))
      + covLoss (s11 (p 2) (p 3) rp) (s12 (p 2) (p 3) rp) (s22 (p 2) (p 3) rp)
                (s11 (t 2) (t 3) rt) (s12 (t 2) (t 3) rt) (s22 (t 2) (t 3) rt))

/-! ## The two ways the angle in radians is obtained -/

/-- The reference: the angle in degrees times the f32 word of π (6588397 / 2²¹), divided by 180. -/
def refAngle (x : EReal) : EReal := Ideal.div (Ideal.ofBits .f32 0x40490FDA#32 * x) (Ideal.ofBits .f32 0x43340000#32)

/-- The kernel: the angle in degrees times ONE constant, which the certificate's table reads as that word of π over 180. -/
abbrev kerC : EReal := ((6588397 / 377487360 : ℝ) : EReal)
def kerAngle (x : EReal) : EReal := kerC * x

/-! ## Small facts both sides use -/

/-- On the extended reals the unordered "not equal" is the ordered one. -/
theorem cmp_une (x y : EReal) : Ideal.cmp .une x y = Ideal.cmp .one x y := rfl

/-- The zero word denotes zero. -/
theorem zero_eq : ZERO = 0 := by simp [ZERO, Ideal.ofBits, Ideal.ieee]

/-- Subtracting from the zero word is negation. -/
theorem zero_sub (x : EReal) : ZERO - x = -x := by rw [zero_eq]; exact _root_.zero_sub x

/-- Adding to the zero word changes nothing. -/
theorem zero_add (x : EReal) : ZERO + x = x := by rw [zero_eq]; exact _root_.zero_add x

end Cert.BoxLoss

end
-- ==== Proof.KerFrame.lean ====
/-
  The idealized kernel's frame and value, on the extended reals.

  The grid has 62 points; point t stages rows 65536·t … of each input (five columns) and writes back rows 65536·t … of
  the result.  4,000,000 = 61·65536 + 2304, so the last point's blocks overhang the arrays: its fetches fill only the
  first 2304 rows of the staging buffers (the rest holds words nothing names) and its write-back moves only the first
  2304 rows.  The body computes each output row from the same row of the two input blocks alone (`RowLaw`), so on the
  rows the transfers move the output block is the per-row loss of the arrays' rows, whatever the unnamed rows hold; the
  blocks' moved parts tile the result array, which therefore ends holding the per-row loss of every row.
-/
import proofs.«136504_j15762529976491_1_alg».proof.Proof.KerBody
import proofs.«136504_j15762529976491_1_alg».proof.Proof.RowSpec
import Idealize.ShloMosaic.Lib.Pipeline.Value
import Idealize.ShloMosaic.Lib.ValueIdx

set_option maxRecDepth 16384

noncomputable section

namespace Cert.KernelIdeal.FrameProof

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- THE ROW LAW of the body: the stored value at row `r` of the block is the per-row loss of row `r` of the two loaded
    blocks, the angles in radians the kernel's (one named constant times the angle in degrees). -/
def RowLaw : Prop := ∀ (x0 x1 : Vec Ideal S65536x5 .f32) (r : Fin 65536),
  bodyOut (F := Ideal) x0 x1 (ix1 r)
    = Cert.BoxLoss.rowLoss (Cert.BoxLoss.kerAngle (x0 (ix2 r 4))) (Cert.BoxLoss.kerAngle (x1 (ix2 r 4)))
        (fun j => x0 (ix2 r j)) (fun j => x1 (ix2 r j))

/-- So a row of the stored value depends on that row of the loaded blocks only. -/
theorem RowLaw.congr (h : RowLaw) (x0 x0' x1 x1' : Vec Ideal S65536x5 .f32) (r : Fin 65536)
    (h0 : ∀ j : Fin 5, x0 (ix2 r j) = x0' (ix2 r j)) (h1 : ∀ j : Fin 5, x1 (ix2 r j) = x1' (ix2 r j)) :
    bodyOut (F := Ideal) x0 x1 (ix1 r) = bodyOut (F := Ideal) x0' x1' (ix1 r) := by
  rw [h x0 x1 r, h x0' x1' r, h0 4, h1 4, funext h0, funext h1]

variable (m : (ℓ : Loc nD τ sig) → Buf (Elt Ideal) ℓ) (ρ : Dev nD → PrngReg)

/-! ## The proof data -/

/-- The zero word: what the proof data puts on the rows of a staging buffer that no transfer moves (nothing reads it). -/
abbrev zf {S : Shape} : S.Idx → Elt Ideal .f32 := fun _ => Scalar.ofBits (F := Ideal) .f32 0#32

/-- Each input's staging buffer after the body at point `t`: its block of the array on the rows the fetch moved. -/
def in0 (c : Dev nD) (t : Fin cfg0.N) : S65536x5.Idx → Elt Ideal .f32 := (cfg0.win 0).fill (cfg0.grid.coords t) zf (iblk m c 0 t)
def in1 (c : Dev nD) (t : Fin cfg0.N) : S65536x5.Idx → Elt Ideal .f32 := (cfg0.win 1).fill (cfg0.grid.coords t) zf (iblk m c 1 t)

/-- The proof data of the one pipeline on core `c`: the arrays as the region finds them; after the body at point `t` the
    inputs' buffers at their blocks and the output's at the body's function of them; the class's invariant; full shares. -/
def dats (_ : Fin 1) (c : Dev nD) : Dat τ (Elt Ideal) Unit ℕ (UR sig nD τ) ℕ cfg0 c where
  A w := V m c (Pipeline.arrRef spec0 w)
  after w t := match w with
    | ⟨0, _⟩ => in0 m c t
    | ⟨1, _⟩ => in1 m c t
    | ⟨2, _⟩ => bodyOut (F := Ideal) (in0 m c t) (in1 m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = in0 m c t := by dsimp only [dats]
theorem after0_1 (c : Dev nD) (t : Fin cfg0.N) : (dats m 0 c).after 1 t = in1 m c t := by dsimp only [dats]
theorem after0_2 (c : Dev nD) (t : Fin cfg0.N) : (dats m 0 c).after 2 t = bodyOut (F := Ideal) (in0 m c t) (in1 m c t) := by dsimp only [dats]

/-- An input's buffer as the body finds it: just fetched — its block on the moved rows, anything (`d`) elsewhere. -/
theorem before0_0 (c : Dev nD) (t : Fin cfg0.N) (d) :
    (dats m 0 c).before 0 t d = (cfg0.win 0).fill (cfg0.grid.coords t) d (iblk m c 0 t) := by
  rw [(dats m 0 c).before_fetched 0 t (fetch0_0 t) d]
  unfold Dat.fetched Dat.blockOf iblk; rw [A_eq]
theorem before0_1 (c : Dev nD) (t : Fin cfg0.N) (d) :
    (dats m 0 c).before 1 t d = (cfg0.win 1).fill (cfg0.grid.coords t) d (iblk m c 1 t) := by
  rw [(dats m 0 c).before_fetched 1 t (fetch0_1 t) d]
  unfold Dat.fetched Dat.blockOf iblk; rw [A_eq]

/-! ## The body obligation -/

/-- The clipped sizes, decided over the grid: at every point the three windows move the same number of rows, and the
    inputs' all five columns. -/
theorem size_facts : ∀ t : Fin cfg0.N,
    win0_0.xsize (grid0.coords t) (0 : Fin 2) = win0_2.xsize (grid0.coords t) (0 : Fin 1)
    ∧ win0_1.xsize (grid0.coords t) (0 : Fin 2) = win0_2.xsize (grid0.coords t) (0 : Fin 1)
    ∧ win0_0.xsize (grid0.coords t) (1 : Fin 2) = 5 ∧ win0_1.xsize (grid0.coords t) (1 : Fin 2) = 5 :=
  (by decide +kernel : ∀ t : Fin grid0.N, _)

/-- On an element the transfer moves, a filled buffer does not depend on what it held before. -/
theorem fill_agree {G : Pipeline.Grid} (w : Window sig G) {α : Type} (i : G.Coords) (d d' : w.block.Idx → α) (g : (w.xblock i).Idx → α)
    (j : w.block.Idx) (h : w.moved i j = true) : w.fill i d g j = w.fill i d' g j := by
  unfold Window.fill; rw [dif_pos h, dif_pos h]

/-- On the rows the write-back moves, the stored block does not depend on what the input buffers hold on the rows
    their fetches did not move: the row law, the three windows moving the same rows. -/
theorem cut_out (hlaw : RowLaw) (c : Dev nD) (t : Fin cfg0.N) (d0 d1 : S65536x5.Idx → Elt Ideal .f32) :
    (cfg0.win 2).cut (cfg0.grid.coords t)
        (bodyOut (F := Ideal) ((cfg0.win 0).fill (cfg0.grid.coords t) d0 (iblk m c 0 t)) ((cfg0.win 1).fill (cfg0.grid.coords t) d1 (iblk m c 1 t)))
      = (cfg0.win 2).cut (cfg0.grid.coords t) (bodyOut (F := Ideal) (in0 m c t) (in1 m c t)) := by
  obtain ⟨e0, e1, e2, e3⟩ := size_facts t
  funext y
  have hy : (y 0).val < win0_2.xsize (grid0.coords t) (0 : Fin 1) := (y 0).isLt
  have hle : win0_2.xsize (grid0.coords t) (0 : Fin 1) ≤ 65536 := win0_2.xsize_le (grid0.coords t) 0
  have hr : (y 0).val < 65536 := by omega
  have e : (cfg0.win 2).xinj (cfg0.grid.coords t) y = ix1 (⟨(y 0).val, hr⟩ : Fin 65536) :=
    funext fun a => Fin.ext (by match a with | ⟨0, _⟩ => rfl)
  show bodyOut (F := Ideal) _ _ ((cfg0.win 2).xinj (cfg0.grid.coords t) y) = bodyOut (F := Ideal) _ _ ((cfg0.win 2).xinj (cfg0.grid.coords t) y)
  rw [e]
  refine hlaw.congr _ _ _ _ _ (fun j => ?_) (fun j => ?_)
  · refine fill_agree (cfg0.win 0) _ _ _ _ _ (((cfg0.win 0).moved_iff _ _).mpr fun a => ?_)
    have hj : j.val < 5 := j.isLt
    match a with
    | ⟨0, _⟩ => show (y 0).val < win0_0.xsize (grid0.coords t) (0 : Fin 2); omega
    | ⟨1, _⟩ => show j.val < win0_0.xsize (grid0.coords t) (1 : Fin 2); omega
  · refine fill_agree (cfg0.win 1) _ _ _ _ _ (((cfg0.win 1).moved_iff _ _).mpr fun a => ?_)
    have hj : j.val < 5 := j.isLt
    match a with
    | ⟨0, _⟩ => show (y 0).val < win0_1.xsize (grid0.coords t) (0 : Fin 2); omega
    | ⟨1, _⟩ => show j.val < win0_1.xsize (grid0.coords t) (1 : Fin 2); omega

set_option maxHeartbeats 2000000 in
/-- The library's body obligation, at every point: the inputs' buffers arrive just fetched (`before0_0`, `before0_1`) and
    leave as they came, which on the moved rows is the proof data's; the output's arrives holding anything and leaves
    holding the body's function of the two, which on the moved rows is the proof data's (`cut_out`). -/
theorem body_obligation (hlaw : RowLaw) (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1]
  iapply (sound_kernel (F := Ideal) c Set.univ (grid0.coords t) _ _ _ _ _ _
    ((cfg0.win 0).fill (cfg0.grid.coords t) d0 (iblk m c 0 t)) ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : (win0 0).fill (grid0.coords t) d0 ((win0 0).cut (grid0.coords t) ((dats m 0 c).after 0 t))
      = (cfg0.win 0).fill (cfg0.grid.coords t) d0 (iblk m c 0 t) := by
    rw [after0_0]; unfold in0; exact congrArg _ ((cfg0.win 0).cut_fill _ _ _)
  have h1 : (win0 1).fill (grid0.coords t) d1 ((win0 1).cut (grid0.coords t) ((dats m 0 c).after 1 t))
      = (cfg0.win 1).fill (cfg0.grid.coords t) d1 (iblk m c 1 t) := by
    rw [after0_1]; unfold in1; exact congrArg _ ((cfg0.win 1).cut_fill _ _ _)
  have h2 : (win0 2).fill (grid0.coords t)
        (out2 (F := Ideal) ((cfg0.win 0).fill (cfg0.grid.coords t) d0 (iblk m c 0 t)) ((cfg0.win 1).fill (cfg0.grid.coords t) d1 (iblk m c 1 t)))
        ((win0 2).cut (grid0.coords t) ((dats m 0 c).after 2 t))
      = out2 (F := Ideal) ((cfg0.win 0).fill (cfg0.grid.coords t) d0 (iblk m c 0 t)) ((cfg0.win 1).fill (cfg0.grid.coords t) d1 (iblk m c 1 t)) := by
    rw [after0_2, out2_eq]; exact (cfg0.win 2).fill_congr_cut _ (cut_out m hlaw c t d0 d1)
  isplitl [H0]; · iexists d0; rw [h0]; iexact H0
  isplitl [H1]; · iexists d1; rw [h1]; iexact H1
  iexists _; rw [h2]; iexact H2

/-! ## The run and the frame -/

set_option backward.isDefEq.respectTransparency.types false in
/-- Every weakly fair execution of @main terminates, and every final state has every array of the pipeline at what the
    library computes from the proof data and every other unscoped buffer as the region found it. -/
theorem run_main (hlaw : RowLaw) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m hlaw c) (hshare := fun c => (dats m 0 c).share_full fun _ => rfl)
    (howed := fun _ _ => rfl) (V := V m) (hmain := hmain m Variants.none) (hA := A_eq m) (hΦ := fun _ _ => rfl)

/-- The frame: the argument arrays end as they began. -/
theorem frame (hlaw : RowLaw) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hlaw)

end Cert.KernelIdeal.FrameProof

end
-- ==== Proof.KerValue.lean ====
/-
  The idealized kernel's result array after the run, as ONE function of the two argument arrays: at row i the per-row
  loss of row i of each (the angles in radians the kernel's).

  Point t's write-back moves rows 65536·t … 65536·t + n_t − 1 of the result (n_t = 65536 but for the last point's 2304),
  and the body's output row r there is the per-row loss of the input blocks' row r, which is the arrays' row 65536·t + r:
  the three windows' index maps all send point t to block t.  Every row i lies in the moved part of point i / 65536.
-/
import proofs.«136504_j15762529976491_1_alg».proof.Proof.KerFrame

set_option maxRecDepth 16384

noncomputable section

namespace Cert.KernelIdeal.FrameProof

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The per-row loss of whole arrays: row i of the result from row i of each argument. -/
def lossOf (a0 a1 : S4000000x5.Idx → Elt Ideal .f32) : S4000000.Idx → Elt Ideal .f32 := fun i =>
  Cert.BoxLoss.rowLoss (Cert.BoxLoss.kerAngle (a0 (ix2 (i 0) 4))) (Cert.BoxLoss.kerAngle (a1 (ix2 (i 0) 4)))
    (fun j => a0 (ix2 (i 0) j)) (fun j => a1 (ix2 (i 0) j))

/-- The printed index maps and the rows each point moves, decided over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_2.xsize (grid0.coords t) (0 : Fin 1) = min 65536 (4000000 - t.val * 65536) :=
  (by decide +kernel : ∀ t : Fin grid0.N, _)

/-- An input's staging row `r` (among the rows point `t` moves), column `j`, holds the array's row 65536·t + r, column j. -/
theorem in0_row (c : Dev nD) (t : Fin cfg0.N) (r : Fin 65536) (hr : r.val < win0_2.xsize (grid0.coords t) (0 : Fin 1))
    (i : S4000000.Idx) (hi : (i 0).val = t.val * 65536 + r.val) (j : Fin 5) :
    in0 m c t (ix2 r j) = V m c main_arg0 (ix2 (i 0) j) := by
  obtain ⟨e0, e1, e2, e3⟩ := size_facts t
  obtain ⟨f0, f1, f2, f3, f4, f5⟩ := idx_facts t
  have hj : j.val < 5 := j.isLt
  have hmv : (cfg0.win 0).moved (cfg0.grid.coords t) (ix2 r j) = true := ((cfg0.win 0).moved_iff _ _).mpr fun a => by
    match a with
    | ⟨0, _⟩ => show r.val < win0_0.xsize (grid0.coords t) (0 : Fin 2); omega
    | ⟨1, _⟩ => show j.val < win0_0.xsize (grid0.coords t) (1 : Fin 2); omega
  unfold in0 Window.fill
  rw [dif_pos hmv]
  unfold iblk
  rw [View.read_apply]
  show V m c main_arg0 _ = V m c main_arg0 _
  refine congrArg (V m c main_arg0) (funext fun a => Fin.ext ?_)
  match a with
  | ⟨0, _⟩ => show win0_0.index t (0 : Fin 2) * 65536 + 1 * r.val = (i 0).val; omega
  | ⟨1, _⟩ => show win0_0.index t (1 : Fin 2) * 5 + 1 * j.val = j.val; omega

theorem in1_row (c : Dev nD) (t : Fin cfg0.N) (r : Fin 65536) (hr : r.val < win0_2.xsize (grid0.coords t) (0 : Fin 1))
    (i : S4000000.Idx) (hi : (i 0).val = t.val * 65536 + r.val) (j : Fin 5) :
    in1 m c t (ix2 r j) = V m c main_arg1 (ix2 (i 0) j) := by
  obtain ⟨e0, e1, e2, e3⟩ := size_facts t
  obtain ⟨f0, f1, f2, f3, f4, f5⟩ := idx_facts t
  have hj : j.val < 5 := j.isLt
  have hmv : (cfg0.win 1).moved (cfg0.grid.coords t) (ix2 r j) = true := ((cfg0.win 1).moved_iff _ _).mpr fun a => by
    match a with
    | ⟨0, _⟩ => show r.val < win0_1.xsize (grid0.coords t) (0 : Fin 2); omega
    | ⟨1, _⟩ => show j.val < win0_1.xsize (grid0.coords t) (1 : Fin 2); omega
  unfold in1 Window.fill
  rw [dif_pos hmv]
  unfold iblk
  rw [View.read_apply]
  show V m c main_arg1 _ = V m c main_arg1 _
  refine congrArg (V m c main_arg1) (funext fun a => Fin.ext ?_)
  match a with
  | ⟨0, _⟩ => show win0_1.index t (0 : Fin 2) * 65536 + 1 * r.val = (i 0).val; omega
  | ⟨1, _⟩ => show win0_1.index t (1 : Fin 2) * 5 + 1 * j.val = j.val; omega

/-- WHAT POINT `t` WRITES BACK is block `t` of the per-row loss of the argument arrays as the region finds them. -/
theorem flushed_eq (hlaw : RowLaw) (c : Dev nD) (t : Fin cfg0.N) :
    (dats m 0 c).flushed 2 t = ((cfg0.win 2).blk t).view.read (Elt Ideal) (lossOf (V m c main_arg0) (V m c main_arg1)) := by
  show (cfg0.win 2).cut (grid0.coords t) ((dats m 0 c).after 2 t) = _
  rw [after0_2]
  obtain ⟨f0, f1, f2, f3, f4, f5⟩ := idx_facts t
  funext y
  have hy : (y 0).val < win0_2.xsize (grid0.coords t) (0 : Fin 1) := (y 0).isLt
  have hle : win0_2.xsize (grid0.coords t) (0 : Fin 1) ≤ 65536 := win0_2.xsize_le (grid0.coords t) 0
  have hr : (y 0).val < 65536 := by omega
  have e : (cfg0.win 2).xinj (cfg0.grid.coords t) y = ix1 (⟨(y 0).val, hr⟩ : Fin 65536) :=
    funext fun a => Fin.ext (by match a with | ⟨0, _⟩ => rfl)
  have hi : ((((cfg0.win 2).blk t).view.emb y) 0).val = t.val * 65536 + (y 0).val := by
    show win0_2.index t (0 : Fin 1) * 65536 + 1 * (y 0).val = _; omega
  show bodyOut (F := Ideal) (in0 m c t) (in1 m c t) ((cfg0.win 2).xinj (cfg0.grid.coords t) y)
    = lossOf (V m c main_arg0) (V m c main_arg1) (((cfg0.win 2).blk t).view.emb y)
  rw [e, hlaw]
  unfold lossOf
  rw [in0_row m c t ⟨(y 0).val, hr⟩ hy _ hi 4, in1_row m c t ⟨(y 0).val, hr⟩ hy _ hi 4,
    funext (in0_row m c t ⟨(y 0).val, hr⟩ hy _ hi), funext (in1_row m c t ⟨(y 0).val, hr⟩ hy _ hi)]

/-- An index of the result is in point `t`'s block iff its row is among the rows the write-back moves. -/
theorem mem_blk (t : Fin cfg0.N) (i : S4000000.Idx) :
    i ∈ ((cfg0.win 2).blk t).view.set
      ↔ ∀ a : Fin 1, win0_2.index t a * S65536.size a ≤ (i a).val ∧ (i a).val < win0_2.index t a * S65536.size a + win0_2.xsize (grid0.coords t) a := by
  show i ∈ ((View.whole main_v0).slice (win0_2.rect t)).set ↔ _
  rw [View.set_slice_whole, Rect.mem_set_unit]
  exact Iff.rfl

/-- Every row is in the moved part of some point's block: row i in point i / 65536's. -/
theorem cover (i : S4000000.Idx) : ∃ t : Fin cfg0.N, (cfg0.win 2).flush t = true ∧ i ∈ ((cfg0.win 2).blk t).view.set := by
  have hi : (i 0).val < 4000000 := (i 0).isLt
  have hN : cfg0.N = 62 := N_0
  refine ⟨⟨(i 0).val / 65536, by rw [hN]; omega⟩, flush0_2 _, ?_⟩
  rw [mem_blk]
  obtain ⟨f0, f1, f2, f3, f4, f5⟩ := idx_facts ⟨(i 0).val / 65536, by rw [hN]; omega⟩
  intro a
  match a with
  | ⟨0, _⟩ =>
    show win0_2.index _ (0 : Fin 1) * 65536 ≤ (i 0).val ∧ (i 0).val < win0_2.index _ (0 : Fin 1) * 65536 + win0_2.xsize _ (0 : Fin 1)
    rw [f4, f5]
    show (i 0).val / 65536 * 65536 ≤ (i 0).val ∧ (i 0).val < (i 0).val / 65536 * 65536 + min 65536 (4000000 - (i 0).val / 65536 * 65536)
    omega

/-- THE RESULT ARRAY after the run: the per-row loss of the argument arrays. -/
theorem final2 (hlaw : RowLaw) (c : Dev nD) :
    (dats m 0 c).arrAt 2 cfg0.N = lossOf (m ((c.tc : Thread nD τ).loc main_arg0)) (m ((c.tc : Thread nD τ).loc main_arg1)) :=
  (dats m 0 c).arrAt_eq_of_cover 2 _ (fun t _ => flushed_eq m hlaw c t) (cover)

/-- The frame run re-posted: the result array at the per-row loss of the arguments, the arguments unchanged. -/
theorem run (hlaw : RowLaw) : θ_run defs (onTc (τ := τ) (main (F := Ideal))) ⟨m, fun _ => 0, ρ⟩ fun r => ∀ c : Dev nD,
      r.2.mem ((c.tc : Thread nD τ).loc main_v0) = lossOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final2 m hlaw c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ hlaw)

end Cert.KernelIdeal.FrameProof

end
-- ==== Proof.RefRowBox.lean ====
/-
  The reference at one row, first part: the covariance entries of each of the two boxes.

  The reference reads the extents through the slice [·, 2:4] (clipped to [1e-7, 1e7], entry by entry), then columns 0 and 1
  of that slice reshaped to vectors; the angle through the slice [·, 4:5] reshaped to a vector.  Read at row r these are
  the entries 2, 3 and 4 of the row; what follows is arithmetic on those three numbers, in the order the row's
  specification writes it.
-/
import proofs.«136504_j15762529976491_1_alg».proof.Proof.RowSpec
import proofs.«136504_j15762529976491_1_alg».proof.Proof.RefReadP
import Idealize.ShloMosaic.Lib.ValueIdx
import Idealize.ShloMosaic.Lib.ValueLayout
import Idealize.ShloMosaic.Lib.Pipeline.Value
import Idealize.ShloMosaic.PureOps.Ideal.Laws

noncomputable section

namespace Cert.RefRow

open Cert.ReferenceIdeal Cert.ReferenceIdeal.Gen Cert.ReferenceIdeal.ReadP Idealize.ShloMosaic Cert.BoxLoss

/-! ## The predicted box: its angle, its two half-extents squared, and its covariance -/

/-- The angle column, read through the slice [·, 4:5] and the reshape to a vector, times the word of π, over 180. -/
theorem angle_p (x0 : (⟨S4000000x5, .f32⟩ : BufTy).Contents (Elt Ideal)) (r : Fin 4000000) :
    val_main_v8 (F := Ideal) x0 (ValueIdx.ix1 r) = refAngle (x0 (ValueIdx.ix2 r 4)) := by
  rw [val_main_v8_apply, val_main_v6_apply, val_main_v5_apply, val_main_v4_apply, val_main_v3_apply, val_main_v7_apply]
  have e : idx_main_v3 (idx_main_v4 (ValueIdx.ix1 r)) = ValueIdx.ix2 r 4 :=
    funext fun a => Fin.ext (by match a with | ⟨0, _⟩ => exact Nat.div_one _ | ⟨1, _⟩ => rfl)
  rw [e]; rfl

theorem cos_p (x0 : (⟨S4000000x5, .f32⟩ : BufTy).Contents (Elt Ideal)) (r : Fin 4000000) :
    val_main_v9 (F := Ideal) x0 (ValueIdx.ix1 r) = Ideal.cos (refAngle (x0 (ValueIdx.ix2 r 4))) := by
  rw [val_main_v9_apply, angle_p]; rfl

theorem sin_p (x0 : (⟨S4000000x5, .f32⟩ : BufTy).Contents (Elt Ideal)) (r : Fin 4000000) :
    val_main_v10 (F := Ideal) x0 (ValueIdx.ix1 r) = Ideal.sin (refAngle (x0 (ValueIdx.ix2 r 4))) := by
  rw [val_main_v10_apply, angle_p]; rfl

/-- The clipped extents: column c of the slice [·, 2:4] is column 2 + c of the row, bounded below by 1e-7 and above by 1e7. -/
theorem clip_w_p (x0 : (⟨S4000000x5, .f32⟩ : BufTy).Contents (Elt Ideal)) (r : Fin 4000000) :
    val_main_v2 (F := Ideal) x0 (ValueIdx.ix2 r 0) = clip (x0 (ValueIdx.ix2 r 2)) := by
  rw [val_main_v2_apply, val_main_call0_v4_apply, val_main_call0_v2_apply, val_main_call0_v1_apply, val_main_v1_apply]
  have e : idx_main_v1 (ValueIdx.ix2 r 0) = ValueIdx.ix2 r 2 :=
    funext fun a => Fin.ext (by match a with | ⟨0, _⟩ => rfl | ⟨1, _⟩ => rfl)
  rw [e]; rfl

theorem clip_h_p (x0 : (⟨S4000000x5, .f32⟩ : BufTy).Contents (Elt Ideal)) (r : Fin 4000000) :
    val_main_v2 (F := Ideal) x0 (ValueIdx.ix2 r 1) = clip (x0 (ValueIdx.ix2 r 3)) := by
  rw [val_main_v2_apply, val_main_call0_v4_apply, val_main_call0_v2_apply, val_main_call0_v1_apply, val_main_v1_apply]
  have e : idx_main_v1 (ValueIdx.ix2 r 1) = ValueIdx.ix2 r 3 :=
    funext fun a => Fin.ext (by match a with | ⟨0, _⟩ => rfl | ⟨1, _⟩ => rfl)
  rw [e]; rfl

/-- (w/2)²: the first clipped extent, halved and squared. -/
theorem halfSq_w_p (x0 : (⟨S4000000x5, .f32⟩ : BufTy).Contents (Elt Ideal)) (r : Fin 4000000) :
    val_main_v15 (F := Ideal) x0 (ValueIdx.ix1 r) = halfSq (x0 (ValueIdx.ix2 r 2)) := by
  rw [val_main_v15_apply, val_main_v14_apply, val_main_v13_apply, val_main_v12_apply, val_main_v11_apply]
  have e : idx_main_v11 (idx_main_v12 (ValueIdx.ix1 r)) = ValueIdx.ix2 r 0 :=
    funext fun a => Fin.ext (by match a with | ⟨0, _⟩ => exact Nat.div_one _ | ⟨1, _⟩ => rfl)
  rw [e, clip_w_p]; rfl

/-- (h/2)²: the second clipped extent, halved and squared. -/
theorem halfSq_h_p (x0 : (⟨S4000000x5, .f32⟩ : BufTy).Contents (Elt Ideal)) (r : Fin 4000000) :
    val_main_v20 (F := Ideal) x0 (ValueIdx.ix1 r) = halfSq (x0 (ValueIdx.ix2 r 3)) := by
  rw [val_main_v20_apply, val_main_v19_apply, val_main_v18_apply, val_main_v17_apply, val_main_v16_apply]
  have e : idx_main_v16 (idx_main_v17 (ValueIdx.ix1 r)) = ValueIdx.ix2 r 1 :=
    funext fun a => Fin.ext (by match a with | ⟨0, _⟩ => exact Nat.div_one _ | ⟨1, _⟩ => rfl)
  rw [e, clip_h_p]; rfl

/-- a·c² + b·s². -/
theorem s11_p (x0 : (⟨S4000000x5, .f32⟩ : BufTy).Contents (Elt Ideal)) (r : Fin 4000000) :
    val_main_v25 (F := Ideal) x0 (ValueIdx.ix1 r)
      = s11 (x0 (ValueIdx.ix2 r 2)) (x0 (ValueIdx.ix2 r 3)) (refAngle (x0 (ValueIdx.ix2 r 4))) := by
  rw [val_main_v25_apply, val_main_v22_apply, val_main_v21_apply, val_main_v24_apply, val_main_v23_apply, halfSq_w_p, halfSq_h_p, cos_p, sin_p]; rfl

/-- (a − b)·s·c. -/
theorem s12_p (x0 : (⟨S4000000x5, .f32⟩ : BufTy).Contents (Elt Ideal)) (r : Fin 4000000) :
    val_main_v28 (F := Ideal) x0 (ValueIdx.ix1 r)
      = s12 (x0 (ValueIdx.ix2 r 2)) (x0 (ValueIdx.ix2 r 3)) (refAngle (x0 (ValueIdx.ix2 r 4))) := by
  rw [val_main_v28_apply, val_main_v27_apply, val_main_v26_apply, halfSq_w_p, halfSq_h_p, cos_p, sin_p]; rfl

/-- a·s² + b·c². -/
theorem s22_p (x0 : (⟨S4000000x5, .f32⟩ : BufTy).Contents (Elt Ideal)) (r : Fin 4000000) :
    val_main_v33 (F := Ideal) x0 (ValueIdx.ix1 r)
      = s22 (x0 (ValueIdx.ix2 r 2)) (x0 (ValueIdx.ix2 r 3)) (refAngle (x0 (ValueIdx.ix2 r 4))) := by
  rw [val_main_v33_apply, val_main_v30_apply, val_main_v29_apply, val_main_v32_apply, val_main_v31_apply, halfSq_w_p, halfSq_h_p, cos_p, sin_p]; rfl

/-! ## The target box: its angle, its two half-extents squared, and its covariance -/

/-- The angle column, read through the slice [·, 4:5] and the reshape to a vector, times the word of π, over 180. -/
theorem angle_t (x1 : (⟨S4000000x5, .f32⟩ : BufTy).Contents (Elt Ideal)) (r : Fin 4000000) :
    val_main_v42 (F := Ideal) x1 (ValueIdx.ix1 r) = refAngle (x1 (ValueIdx.ix2 r 4)) := by
  rw [val_main_v42_apply, val_main_v40_apply, val_main_v39_apply, val_main_v38_apply, val_main_v37_apply, val_main_v41_apply]
  have e : idx_main_v37 (idx_main_v38 (ValueIdx.ix1 r)) = ValueIdx.ix2 r 4 :=
    funext fun a => Fin.ext (by match a with | ⟨0, _⟩ => exact Nat.div_one _ | ⟨1, _⟩ => rfl)
  rw [e]; rfl

theorem cos_t (x1 : (⟨S4000000x5, .f32⟩ : BufTy).Contents (Elt Ideal)) (r : Fin 4000000) :
    val_main_v43 (F := Ideal) x1 (ValueIdx.ix1 r) = Ideal.cos (refAngle (x1 (ValueIdx.ix2 r 4))) := by
  rw [val_main_v43_apply, angle_t]; rfl

theorem sin_t (x1 : (⟨S4000000x5, .f32⟩ : BufTy).Contents (Elt Ideal)) (r : Fin 4000000) :
    val_main_v44 (F := Ideal) x1 (ValueIdx.ix1 r) = Ideal.sin (refAngle (x1 (ValueIdx.ix2 r 4))) := by
  rw [val_main_v44_apply, angle_t]; rfl

/-- The clipped extents: column c of the slice [·, 2:4] is column 2 + c of the row, bounded below by 1e-7 and above by 1e7. -/
theorem clip_w_t (x1 : (⟨S4000000x5, .f32⟩ : BufTy).Contents (Elt Ideal)) (r : Fin 4000000) :
    val_main_v36 (F := Ideal) x1 (ValueIdx.ix2 r 0) = clip (x1 (ValueIdx.ix2 r 2)) := by
  rw [val_main_v36_apply, val_main_call1_v4_apply, val_main_call1_v2_apply, val_main_call1_v1_apply, val_main_v35_apply]
  have e : idx_main_v35 (ValueIdx.ix2 r 0) = ValueIdx.ix2 r 2 :=
    funext fun a => Fin.ext (by match a with | ⟨0, _⟩ => rfl | ⟨1, _⟩ => rfl)
  rw [e]; rfl

theorem clip_h_t (x1 : (⟨S4000000x5, .f32⟩ : BufTy).Contents (Elt Ideal)) (r : Fin 4000000) :
    val_main_v36 (F := Ideal) x1 (ValueIdx.ix2 r 1) = clip (x1 (ValueIdx.ix2 r 3)) := by
  rw [val_main_v36_apply, val_main_call1_v4_apply, val_main_call1_v2_apply, val_main_call1_v1_apply, val_main_v35_apply]
  have e : idx_main_v35 (ValueIdx.ix2 r 1) = ValueIdx.ix2 r 3 :=
    funext fun a => Fin.ext (by match a with | ⟨0, _⟩ => rfl | ⟨1, _⟩ => rfl)
  rw [e]; rfl

/-- (w/2)²: the first clipped extent, halved and squared. -/
theorem halfSq_w_t (x1 : (⟨S4000000x5, .f32⟩ : BufTy).Contents (Elt Ideal)) (r : Fin 4000000) :
    val_main_v49 (F := Ideal) x1 (ValueIdx.ix1 r) = halfSq (x1 (ValueIdx.ix2 r 2)) := by
  rw [val_main_v49_apply, val_main_v48_apply, val_main_v47_apply, val_main_v46_apply, val_main_v45_apply]
  have e : idx_main_v45 (idx_main_v46 (ValueIdx.ix1 r)) = ValueIdx.ix2 r 0 :=
    funext fun a => Fin.ext (by match a with | ⟨0, _⟩ => exact Nat.div_one _ | ⟨1, _⟩ => rfl)
  rw [e, clip_w_t]; rfl

/-- (h/2)²: the second clipped extent, halved and squared. -/
theorem halfSq_h_t (x1 : (⟨S4000000x5, .f32⟩ : BufTy).Contents (Elt Ideal)) (r : Fin 4000000) :
    val_main_v54 (F := Ideal) x1 (ValueIdx.ix1 r) = halfSq (x1 (ValueIdx.ix2 r 3)) := by
  rw [val_main_v54_apply, val_main_v53_apply, val_main_v52_apply, val_main_v51_apply, val_main_v50_apply]
  have e : idx_main_v50 (idx_main_v51 (ValueIdx.ix1 r)) = ValueIdx.ix2 r 1 :=
    funext fun a => Fin.ext (by match a with | ⟨0, _⟩ => exact Nat.div_one _ | ⟨1, _⟩ => rfl)
  rw [e, clip_h_t]; rfl

/-- a·c² + b·s². -/
theorem s11_t (x1 : (⟨S4000000x5, .f32⟩ : BufTy).Contents (Elt Ideal)) (r : Fin 4000000) :
    val_main_v59 (F := Ideal) x1 (ValueIdx.ix1 r)
      = s11 (x1 (ValueIdx.ix2 r 2)) (x1 (ValueIdx.ix2 r 3)) (refAngle (x1 (ValueIdx.ix2 r 4))) := by
  rw [val_main_v59_apply, val_main_v56_apply, val_main_v55_apply, val_main_v58_apply, val_main_v57_apply, halfSq_w_t, halfSq_h_t, cos_t, sin_t]; rfl

/-- (a − b)·s·c. -/
theorem s12_t (x1 : (⟨S4000000x5, .f32⟩ : BufTy).Contents (Elt Ideal)) (r : Fin 4000000) :
    val_main_v62 (F := Ideal) x1 (ValueIdx.ix1 r)
      = s12 (x1 (ValueIdx.ix2 r 2)) (x1 (ValueIdx.ix2 r 3)) (refAngle (x1 (ValueIdx.ix2 r 4))) := by
  rw [val_main_v62_apply, val_main_v61_apply, val_main_v60_apply, halfSq_w_t, halfSq_h_t, cos_t, sin_t]; rfl

/-- a·s² + b·c². -/
theorem s22_t (x1 : (⟨S4000000x5, .f32⟩ : BufTy).Contents (Elt Ideal)) (r : Fin 4000000) :
    val_main_v67 (F := Ideal) x1 (ValueIdx.ix1 r)
      = s22 (x1 (ValueIdx.ix2 r 2)) (x1 (ValueIdx.ix2 r 3)) (refAngle (x1 (ValueIdx.ix2 r 4))) := by
  rw [val_main_v67_apply, val_main_v64_apply, val_main_v63_apply, val_main_v66_apply, val_main_v65_apply, halfSq_w_t, halfSq_h_t, cos_t, sin_t]; rfl

end Cert.RefRow

end
-- ==== Proof.RefRowCenter.lean ====
/-
  The reference at one row, second part: the smooth-L1 term of the two centre coordinates.

  The centres are the slices [·, 0:2] of the two inputs; their difference, its absolute value, the comparison with 1/9
  and the two branches are entry-by-entry operations on those two-column arrays, and the float sum over the second axis
  adds the two columns to a zero initial value.
-/
import proofs.«136504_j15762529976491_1_alg».proof.Proof.RowSpec
import proofs.«136504_j15762529976491_1_alg».proof.Proof.RefReadP
import Idealize.ShloMosaic.Lib.ValueIdx
import Idealize.ShloMosaic.Lib.ValueLayout
import Idealize.ShloMosaic.Lib.Pipeline.Value
import Idealize.ShloMosaic.PureOps.Ideal.Laws

noncomputable section

namespace Cert.RefRow

open Cert.ReferenceIdeal Cert.ReferenceIdeal.Gen Cert.ReferenceIdeal.ReadP Idealize.ShloMosaic Cert.BoxLoss

/-- The absolute difference of the centres at row r, column 0. -/
theorem absdiff_x (x0 x1 : (⟨S4000000x5, .f32⟩ : BufTy).Contents (Elt Ideal)) (r : Fin 4000000) :
    val_main_v69 (F := Ideal) x0 x1 (ValueIdx.ix2 r 0)
      = FloatOps.absf (F := Ideal) (φ := .f32) (x0 (ValueIdx.ix2 r 0) - x1 (ValueIdx.ix2 r 0)) := by
  rw [val_main_v69_apply, val_main_v68_apply, val_main_v0_apply, val_main_v34_apply]
  have e0 : idx_main_v0 (ValueIdx.ix2 r 0) = ValueIdx.ix2 r 0 :=
    funext fun a => Fin.ext (by match a with | ⟨0, _⟩ => rfl | ⟨1, _⟩ => rfl)
  have e1 : idx_main_v34 (ValueIdx.ix2 r 0) = ValueIdx.ix2 r 0 :=
    funext fun a => Fin.ext (by match a with | ⟨0, _⟩ => rfl | ⟨1, _⟩ => rfl)
  rw [e0, e1]; rfl

/-- The absolute difference of the centres at row r, column 1. -/
theorem absdiff_y (x0 x1 : (⟨S4000000x5, .f32⟩ : BufTy).Contents (Elt Ideal)) (r : Fin 4000000) :
    val_main_v69 (F := Ideal) x0 x1 (ValueIdx.ix2 r 1)
      = FloatOps.absf (F := Ideal) (φ := .f32) (x0 (ValueIdx.ix2 r 1) - x1 (ValueIdx.ix2 r 1)) := by
  rw [val_main_v69_apply, val_main_v68_apply, val_main_v0_apply, val_main_v34_apply]
  have e0 : idx_main_v0 (ValueIdx.ix2 r 1) = ValueIdx.ix2 r 1 :=
    funext fun a => Fin.ext (by match a with | ⟨0, _⟩ => rfl | ⟨1, _⟩ => rfl)
  have e1 : idx_main_v34 (ValueIdx.ix2 r 1) = ValueIdx.ix2 r 1 :=
    funext fun a => Fin.ext (by match a with | ⟨0, _⟩ => rfl | ⟨1, _⟩ => rfl)
  rw [e0, e1]; rfl

/-- Where the absolute difference is |a − b|, the selected branch is the smooth-L1 value of (a, b): quadratic below
    1/9, linear above. -/
theorem smooth_of_absdiff (x0 x1 : (⟨S4000000x5, .f32⟩ : BufTy).Contents (Elt Ideal)) (i : S4000000x2.Idx) (a b : EReal)
    (h : val_main_v69 (F := Ideal) x0 x1 i = FloatOps.absf (F := Ideal) (φ := .f32) (a - b)) :
    val_main_v79 (F := Ideal) x0 x1 i = smooth a b := by
  rw [val_main_v79_apply, val_main_v71_apply, val_main_v76_apply, val_main_v74_apply, val_main_v73_apply,
    val_main_v78_apply, val_main_v70_apply, val_main_v72_apply, val_main_v75_apply, val_main_v77_apply, h]
  rfl

/-- The sum over the two columns, the zero initial value dropped. -/
theorem center_sum (x0 x1 : (⟨S4000000x5, .f32⟩ : BufTy).Contents (Elt Ideal)) (r : Fin 4000000) :
    val_main_v80 (F := Ideal) x0 x1 (ValueIdx.ix1 r)
      = smooth (x0 (ValueIdx.ix2 r 0)) (x1 (ValueIdx.ix2 r 0)) + smooth (x0 (ValueIdx.ix2 r 1)) (x1 (ValueIdx.ix2 r 1)) := by
  rw [val_main_v80_apply, Fin.sum_univ_two, val_main_cst_15_apply]
  have e0 : idx_main_v80 (ValueIdx.ix1 r) 0 = ValueIdx.ix2 r 0 :=
    funext fun a => Fin.ext (by match a with | ⟨0, _⟩ => rfl | ⟨1, _⟩ => rfl)
  have e1 : idx_main_v80 (ValueIdx.ix1 r) 1 = ValueIdx.ix2 r 1 :=
    funext fun a => Fin.ext (by match a with | ⟨0, _⟩ => rfl | ⟨1, _⟩ => rfl)
  rw [e0, e1, smooth_of_absdiff x0 x1 _ _ _ (absdiff_x x0 x1 r), smooth_of_absdiff x0 x1 _ _ _ (absdiff_y x0 x1 r)]
  exact Cert.BoxLoss.zero_add _

end Cert.RefRow

end
-- ==== Proof.RefRowCov.lean ====
/-
  The reference at one row, third part: from the six covariance entries to 1 − Vb / (Vb_p + Vb_t − Vb + eps).

  Every operation here is entry by entry on vectors of one length, so the index plays no part: each lemma is stated
  at an arbitrary index i and takes as hypotheses what the six covariance stages are at i.  The sum U = Σp + Σt is
  named first (it is used nine times), then its determinant, the four entries of K = Σp · U⁻¹, the determinant root
  of Σp − K·Σp with its guard, and the ratio.
-/
import proofs.«136504_j15762529976491_1_alg».proof.Proof.RowSpec
import proofs.«136504_j15762529976491_1_alg».proof.Proof.RefReadP
import Idealize.ShloMosaic.Lib.ValueIdx
import Idealize.ShloMosaic.Lib.ValueLayout
import Idealize.ShloMosaic.Lib.Pipeline.Value
import Idealize.ShloMosaic.PureOps.Ideal.Laws

noncomputable section

namespace Cert.RefRow

open Cert.ReferenceIdeal Cert.ReferenceIdeal.Gen Cert.ReferenceIdeal.ReadP Idealize.ShloMosaic Cert.BoxLoss

/-! ## The two boxes' own volumes -/

theorem vol_p (x0 : (⟨S4000000x5, .f32⟩ : BufTy).Contents (Elt Ideal)) (i : S4000000.Idx) (p11 p12 p22 : EReal)
    (h25 : val_main_v25 (F := Ideal) x0 i = p11) (h28 : val_main_v28 (F := Ideal) x0 i = p12)
    (h33 : val_main_v33 (F := Ideal) x0 i = p22) :
    val_main_v86 (F := Ideal) x0 i = vol p11 p12 p12 p22 := by
  rw [val_main_v86_apply, val_main_v85_apply, val_main_v84_apply, val_main_v83_apply, val_main_v81_apply,
    val_main_v82_apply, h25, h28, h33]
  rfl

theorem vol_t (x1 : (⟨S4000000x5, .f32⟩ : BufTy).Contents (Elt Ideal)) (i : S4000000.Idx) (t11 t12 t22 : EReal)
    (h59 : val_main_v59 (F := Ideal) x1 i = t11) (h62 : val_main_v62 (F := Ideal) x1 i = t12)
    (h67 : val_main_v67 (F := Ideal) x1 i = t22) :
    val_main_v92 (F := Ideal) x1 i = vol t11 t12 t12 t22 := by
  rw [val_main_v92_apply, val_main_v91_apply, val_main_v90_apply, val_main_v89_apply, val_main_v87_apply,
    val_main_v88_apply, h59, h62, h67]
  rfl

/-! ## U = Σp + Σt and its determinant -/

theorem u11_at (x0 x1 : (⟨S4000000x5, .f32⟩ : BufTy).Contents (Elt Ideal)) (i : S4000000.Idx) (p11 t11 : EReal)
    (h25 : val_main_v25 (F := Ideal) x0 i = p11) (h59 : val_main_v59 (F := Ideal) x1 i = t11) :
    val_main_v93 (F := Ideal) x0 x1 i = p11 + t11 := by
  rw [val_main_v93_apply, h25, h59]; rfl

theorem u12_at (x0 x1 : (⟨S4000000x5, .f32⟩ : BufTy).Contents (Elt Ideal)) (i : S4000000.Idx) (p12 t12 : EReal)
    (h28 : val_main_v28 (F := Ideal) x0 i = p12) (h62 : val_main_v62 (F := Ideal) x1 i = t12) :
    val_main_v94 (F := Ideal) x0 x1 i = p12 + t12 := by
  rw [val_main_v94_apply, h28, h62]; rfl

theorem u22_at (x0 x1 : (⟨S4000000x5, .f32⟩ : BufTy).Contents (Elt Ideal)) (i : S4000000.Idx) (p22 t22 : EReal)
    (h33 : val_main_v33 (F := Ideal) x0 i = p22) (h67 : val_main_v67 (F := Ideal) x1 i = t22) :
    val_main_v95 (F := Ideal) x0 x1 i = p22 + t22 := by
  rw [val_main_v95_apply, h33, h67]; rfl

theorem detU_at (x0 x1 : (⟨S4000000x5, .f32⟩ : BufTy).Contents (Elt Ideal)) (i : S4000000.Idx) (p11 p12 p22 t11 t12 t22 : EReal)
    (h25 : val_main_v25 (F := Ideal) x0 i = p11)
    (h28 : val_main_v28 (F := Ideal) x0 i = p12)
    (h33 : val_main_v33 (F := Ideal) x0 i = p22)
    (h59 : val_main_v59 (F := Ideal) x1 i = t11)
    (h62 : val_main_v62 (F := Ideal) x1 i = t12)
    (h67 : val_main_v67 (F := Ideal) x1 i = t22) :
    val_main_v98 (F := Ideal) x0 x1 i = detU p11 p12 p22 t11 t12 t22 := by
  rw [val_main_v98_apply, val_main_v96_apply, val_main_v97_apply,
    u11_at x0 x1 i p11 t11 h25 h59, u12_at x0 x1 i p12 t12 h28 h62, u22_at x0 x1 i p22 t22 h33 h67]
  rfl

/-! ## K = Σp · U⁻¹, entry by entry -/

theorem k11_at (x0 x1 : (⟨S4000000x5, .f32⟩ : BufTy).Contents (Elt Ideal)) (i : S4000000.Idx) (p11 p12 p22 t11 t12 t22 : EReal)
    (h25 : val_main_v25 (F := Ideal) x0 i = p11)
    (h28 : val_main_v28 (F := Ideal) x0 i = p12)
    (h33 : val_main_v33 (F := Ideal) x0 i = p22)
    (h59 : val_main_v59 (F := Ideal) x1 i = t11)
    (h62 : val_main_v62 (F := Ideal) x1 i = t12)
    (h67 : val_main_v67 (F := Ideal) x1 i = t22) :
    val_main_v102 (F := Ideal) x0 x1 i = k11 p11 p12 p22 t11 t12 t22 := by
  rw [val_main_v102_apply, val_main_v101_apply, val_main_v99_apply, val_main_v100_apply,
    detU_at x0 x1 i p11 p12 p22 t11 t12 t22 h25 h28 h33 h59 h62 h67,
    u12_at x0 x1 i p12 t12 h28 h62, u22_at x0 x1 i p22 t22 h33 h67, h25, h28]
  rfl

theorem k12_at (x0 x1 : (⟨S4000000x5, .f32⟩ : BufTy).Contents (Elt Ideal)) (i : S4000000.Idx) (p11 p12 p22 t11 t12 t22 : EReal)
    (h25 : val_main_v25 (F := Ideal) x0 i = p11)
    (h28 : val_main_v28 (F := Ideal) x0 i = p12)
    (h33 : val_main_v33 (F := Ideal) x0 i = p22)
    (h59 : val_main_v59 (F := Ideal) x1 i = t11)
    (h62 : val_main_v62 (F := Ideal) x1 i = t12)
    (h67 : val_main_v67 (F := Ideal) x1 i = t22) :
    val_main_v107 (F := Ideal) x0 x1 i = k12 p11 p12 p22 t11 t12 t22 := by
  rw [val_main_v107_apply, val_main_v106_apply, val_main_v104_apply, val_main_v105_apply, val_main_v103_apply,
    detU_at x0 x1 i p11 p12 p22 t11 t12 t22 h25 h28 h33 h59 h62 h67,
    u11_at x0 x1 i p11 t11 h25 h59, u12_at x0 x1 i p12 t12 h28 h62, h25, h28]
  rfl

theorem k21_at (x0 x1 : (⟨S4000000x5, .f32⟩ : BufTy).Contents (Elt Ideal)) (i : S4000000.Idx) (p11 p12 p22 t11 t12 t22 : EReal)
    (h25 : val_main_v25 (F := Ideal) x0 i = p11)
    (h28 : val_main_v28 (F := Ideal) x0 i = p12)
    (h33 : val_main_v33 (F := Ideal) x0 i = p22)
    (h59 : val_main_v59 (F := Ideal) x1 i = t11)
    (h62 : val_main_v62 (F := Ideal) x1 i = t12)
    (h67 : val_main_v67 (F := Ideal) x1 i = t22) :
    val_main_v111 (F := Ideal) x0 x1 i = k21 p11 p12 p22 t11 t12 t22 := by
  rw [val_main_v111_apply, val_main_v110_apply, val_main_v108_apply, val_main_v109_apply,
    detU_at x0 x1 i p11 p12 p22 t11 t12 t22 h25 h28 h33 h59 h62 h67,
    u12_at x0 x1 i p12 t12 h28 h62, u22_at x0 x1 i p22 t22 h33 h67, h28, h33]
  rfl

theorem k22_at (x0 x1 : (⟨S4000000x5, .f32⟩ : BufTy).Contents (Elt Ideal)) (i : S4000000.Idx) (p11 p12 p22 t11 t12 t22 : EReal)
    (h25 : val_main_v25 (F := Ideal) x0 i = p11)
    (h28 : val_main_v28 (F := Ideal) x0 i = p12)
    (h33 : val_main_v33 (F := Ideal) x0 i = p22)
    (h59 : val_main_v59 (F := Ideal) x1 i = t11)
    (h62 : val_main_v62 (F := Ideal) x1 i = t12)
    (h67 : val_main_v67 (F := Ideal) x1 i = t22) :
    val_main_v116 (F := Ideal) x0 x1 i = k22 p11 p12 p22 t11 t12 t22 := by
  rw [val_main_v116_apply, val_main_v115_apply, val_main_v113_apply, val_main_v114_apply, val_main_v112_apply,
    detU_at x0 x1 i p11 p12 p22 t11 t12 t22 h25 h28 h33 h59 h62 h67,
    u11_at x0 x1 i p11 t11 h25 h59, u12_at x0 x1 i p12 t12 h28 h62, h28, h33]
  rfl

/-! ## Σp − K·Σp, its determinant root, the guard -/

/-- 4·√det(Σp − K·Σp) from Σp's entries and whatever the four entries of K are. -/
theorem volS_at (x0 x1 : (⟨S4000000x5, .f32⟩ : BufTy).Contents (Elt Ideal)) (i : S4000000.Idx) (p11 p12 p22 ka kb kc kd : EReal)
    (h25 : val_main_v25 (F := Ideal) x0 i = p11) (h28 : val_main_v28 (F := Ideal) x0 i = p12)
    (h33 : val_main_v33 (F := Ideal) x0 i = p22)
    (h102 : val_main_v102 (F := Ideal) x0 x1 i = ka) (h107 : val_main_v107 (F := Ideal) x0 x1 i = kb)
    (h111 : val_main_v111 (F := Ideal) x0 x1 i = kc) (h116 : val_main_v116 (F := Ideal) x0 x1 i = kd) :
    val_main_v138 (F := Ideal) x0 x1 i = volS p11 p12 p22 ka kb kc kd := by
  rw [val_main_v138_apply, val_main_v137_apply, val_main_v136_apply, val_main_v135_apply, val_main_v133_apply,
    val_main_v134_apply, val_main_v120_apply, val_main_v132_apply, val_main_v124_apply, val_main_v128_apply,
    val_main_v119_apply, val_main_v131_apply, val_main_v123_apply, val_main_v127_apply,
    val_main_v117_apply, val_main_v118_apply, val_main_v129_apply, val_main_v130_apply,
    val_main_v121_apply, val_main_v122_apply, val_main_v125_apply, val_main_v126_apply,
    h102, h107, h111, h116, h25, h28, h33]
  rfl

/-- The guard: the reference asks "v ≠ v, or unordered", which on the extended reals is the ordered "v ≠ v". -/
theorem guard_at (x0 x1 : (⟨S4000000x5, .f32⟩ : BufTy).Contents (Elt Ideal)) (i : S4000000.Idx) (v : EReal)
    (h138 : val_main_v138 (F := Ideal) x0 x1 i = v) :
    val_main_v141 (F := Ideal) x0 x1 i = guard v := by
  rw [val_main_v141_apply, val_main_v139_apply, val_main_v140_apply, h138]
  rfl

/-! ## The ratio -/

theorem ratioLoss_at (x0 x1 : (⟨S4000000x5, .f32⟩ : BufTy).Contents (Elt Ideal)) (i : S4000000.Idx) (vb vp vt : EReal)
    (h141 : val_main_v141 (F := Ideal) x0 x1 i = vb) (h86 : val_main_v86 (F := Ideal) x0 i = vp)
    (h92 : val_main_v92 (F := Ideal) x1 i = vt) :
    val_main_v148 (F := Ideal) x0 x1 i = ratioLoss vb vp vt := by
  rw [val_main_v148_apply, val_main_v147_apply, val_main_v146_apply, val_main_v145_apply, val_main_v144_apply,
    val_main_v143_apply, val_main_v142_apply, h141, h86, h92]
  rfl

/-- The covariance part of the loss at an index from the six covariance entries there. -/
theorem covLoss_at (x0 x1 : (⟨S4000000x5, .f32⟩ : BufTy).Contents (Elt Ideal)) (i : S4000000.Idx) (p11 p12 p22 t11 t12 t22 : EReal)
    (h25 : val_main_v25 (F := Ideal) x0 i = p11)
    (h28 : val_main_v28 (F := Ideal) x0 i = p12)
    (h33 : val_main_v33 (F := Ideal) x0 i = p22)
    (h59 : val_main_v59 (F := Ideal) x1 i = t11)
    (h62 : val_main_v62 (F := Ideal) x1 i = t12)
    (h67 : val_main_v67 (F := Ideal) x1 i = t22) :
    val_main_v148 (F := Ideal) x0 x1 i = covLoss p11 p12 p22 t11 t12 t22 :=
  ratioLoss_at x0 x1 i _ _ _
    (guard_at x0 x1 i _
      (volS_at x0 x1 i p11 p12 p22 _ _ _ _ h25 h28 h33
        (k11_at x0 x1 i p11 p12 p22 t11 t12 t22 h25 h28 h33 h59 h62 h67) (k12_at x0 x1 i p11 p12 p22 t11 t12 t22 h25 h28 h33 h59 h62 h67)
        (k21_at x0 x1 i p11 p12 p22 t11 t12 t22 h25 h28 h33 h59 h62 h67) (k22_at x0 x1 i p11 p12 p22 t11 t12 t22 h25 h28 h33 h59 h62 h67)))
    (vol_p x0 i p11 p12 p22 h25 h28 h33) (vol_t x1 i t11 t12 t22 h59 h62 h67)

end Cert.RefRow

end
-- ==== Proof.RefRow.lean ====
/-
  The reference at one row: it is the row's loss, with the angle obtained as (π · degrees) / 180.

  The three parts — the covariance entries of the two boxes, the smooth-L1 sum of the centres, and the covariance
  term from the six entries — meet in the last two operations: the sum of the two terms, and its maximum with zero.
-/
import proofs.«136504_j15762529976491_1_alg».proof.Proof.RowSpec
import proofs.«136504_j15762529976491_1_alg».proof.Proof.RefReadP
import proofs.«136504_j15762529976491_1_alg».proof.Proof.RefRowBox
import proofs.«136504_j15762529976491_1_alg».proof.Proof.RefRowCenter
import proofs.«136504_j15762529976491_1_alg».proof.Proof.RefRowCov
import Idealize.ShloMosaic.Lib.ValueIdx
import Idealize.ShloMosaic.Lib.ValueLayout
import Idealize.ShloMosaic.Lib.Pipeline.Value
import Idealize.ShloMosaic.PureOps.Ideal.Laws

noncomputable section

namespace Cert.RefRow

open Cert.ReferenceIdeal Cert.ReferenceIdeal.Gen Cert.ReferenceIdeal.ReadP Idealize.ShloMosaic Cert.BoxLoss

theorem ref_row (x0 x1 : (⟨S4000000x5, .f32⟩ : BufTy).Contents (Elt Ideal)) (r : Fin 4000000) :
    val_main_v150 (F := Ideal) x0 x1 (ValueIdx.ix1 r)
      = rowLoss (refAngle (x0 (ValueIdx.ix2 r 4))) (refAngle (x1 (ValueIdx.ix2 r 4)))
          (fun j => x0 (ValueIdx.ix2 r j)) (fun j => x1 (ValueIdx.ix2 r j)) := by
  rw [val_main_v150_apply, val_main_call4_v1_apply, val_main_v149_apply, center_sum x0 x1 r,
    covLoss_at x0 x1 (ValueIdx.ix1 r) _ _ _ _ _ _ (s11_p x0 r) (s12_p x0 r) (s22_p x0 r) (s11_t x1 r) (s12_t x1 r)
      (s22_t x1 r)]
  rfl

end Cert.RefRow

end
-- ==== Proof.Angle.lean ====
/-
  The one place the two programs differ in value, and why they agree on finite inputs.

  The kernel multiplies the angle in degrees by ONE constant, which the certificate's table reads as the rational
  6588397 / 377487360; the reference multiplies it by the f32 word of π, which denotes 6588397 / 2²¹, and divides by 180.
  2²¹ · 180 = 377487360, so on a REAL angle the two are one number (a product of reals, and a quotient by the nonzero
  real 180).  At an infinite angle they would differ in form (∞ · c against (∞ · p) / 180), so finiteness is used —
  and the precondition gives it: |x| < +∞ at every entry of both inputs.
-/
import proofs.«136504_j15762529976491_1_alg».proof.Pre_finite_inputs
import proofs.«136504_j15762529976491_1_alg».proof.Proof.RowSpec
import Idealize.ShloMosaic.Lib.ReduceAll
import Idealize.ShloMosaic.Lib.ValueIdx

noncomputable section

namespace Cert.BoxLoss

open Idealize.ShloMosaic

/-! ## The literal words -/

/-- The f32 word of π denotes 6588397 / 2²¹. -/
theorem pi_word : Ideal.ofBits .f32 0x40490FDA#32 = ((6588397 / 2097152 : ℝ) : EReal) := by
  simp [Ideal.ofBits, Ideal.ieee, -EReal.coe_mul]; norm_num

/-- 180.0 denotes the real 180. -/
theorem w180 : Ideal.ofBits .f32 0x43340000#32 = ((180 : ℝ) : EReal) := by
  simp [Ideal.ofBits, Ideal.ieee, -EReal.coe_mul]; norm_num

/-- The +inf word denotes ⊤. -/
theorem inf_word : Ideal.ofBits .f32 0x7F800000#32 = ⊤ := by
  simp [Ideal.ofBits, Ideal.ieee]

/-! ## The angle -/

/-- On a real angle in degrees the kernel's angle in radians is the reference's. -/
theorem angle_eq (r : ℝ) : kerAngle (r : EReal) = refAngle (r : EReal) := by
  unfold kerAngle refAngle
  rw [pi_word, w180, Ideal.div_coe (by norm_num : (180 : ℝ) ≠ 0), ← EReal.coe_mul, ← EReal.coe_mul, ← EReal.coe_mul]
  congr 1
  ring

/-! ## The precondition, read back -/

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    have : Ideal.cmp .olt (max x (-x)) ⊤ = 0#1 := by
      unfold Ideal.cmp; simp [hn]
    rw [this] at h; exact absurd h (by decide)
  induction x using EReal.rec with
  | bot => exact absurd hlt (by simp)
  | coe r => exact ⟨r, rfl⟩
  | top => exact absurd hlt (by simp)

end Cert.BoxLoss

namespace Cert.Pre_finite_inputs

open Idealize.ShloMosaic

variable [Facts]
open Facts

instance : Subsingleton S_.Idx := ⟨fun a b => funext fun d => d.elim0⟩

/-- The precondition says every entry of both inputs is a real number. -/
theorem real_of_pre (a0 a1 : FVec Ideal S4000000x5 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨e0, e1⟩ := IntOp.andi_eq_one.1 h0
  refine ⟨fun i => ?_, fun i => ?_⟩
  · exact Cert.BoxLoss.real_of_abs_lt (a0 i) (Host.reduce_andi_all _ _ _ _ ValueIdx.ix0 e0 i)
  · exact Cert.BoxLoss.real_of_abs_lt (a1 i) (Host.reduce_andi_all _ _ _ _ ValueIdx.ix0 e1 i)

end Cert.Pre_finite_inputs

end
-- ==== Proof.Bridge.lean ====
/-
  The five conjuncts, from the pieces.

  * The word-level kernel's frame: its run with every staging window forgotten.
  * The idealized kernel's frame and value: its run with the result array at the per-row loss of the two argument arrays
    (the angles in radians the kernel's: one named constant times the angle in degrees).
  * The reference's frame and value: its run with the result at the last stage of its operations read one at a time,
    which at row r is the same per-row loss of the arrays' rows r (the angles in radians the reference's: π's f32 word
    times the angle in degrees, over 180).
  * The two angles agree on real inputs, and the precondition makes every input entry real; so the two results are equal
    row by row.
  * The ideal pass's ledger: its two entries name the same constant at the two boxes' angle scalings.

  The kernel-side row law (the body's output row as the per-row loss of its input blocks' row) is taken as a hypothesis
  here and supplied where the claim is assembled.
-/
import proofs.«136504_j15762529976491_1_alg».proof.Defs
import proofs.«136504_j15762529976491_1_alg».proof.Proof.Gen.Kernel
import proofs.«136504_j15762529976491_1_alg».proof.Proof.Gen.KernelIdeal
import proofs.«136504_j15762529976491_1_alg».proof.Proof.Gen.ReferenceIdeal
import proofs.«136504_j15762529976491_1_alg».proof.Proof.Gen.Pre_finite_inputs
import proofs.«136504_j15762529976491_1_alg».proof.Proof.KernelFrame
import proofs.«136504_j15762529976491_1_alg».proof.Proof.KerValue
import proofs.«136504_j15762529976491_1_alg».proof.Proof.RefRunP
import proofs.«136504_j15762529976491_1_alg».proof.Proof.RefRow
import proofs.«136504_j15762529976491_1_alg».proof.Proof.Angle
import Idealize.ShloMosaic.PureOps.IdealRules

noncomputable section

namespace Cert.Proof.Bridge

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.FrameProof.frame (F := Bits) m ρ

theorem frame_ki (hlaw : Cert.KernelIdeal.FrameProof.RowLaw) : Cert.frame_KernelIdeal :=
  fun m ρ _ => Cert.KernelIdeal.FrameProof.frame m ρ hlaw

theorem frame_ri : Cert.frame_ReferenceIdeal := fun m ρ _ =>
  (θ_run Cert.ReferenceIdeal.defs _ _).mono (fun _ h c => (h c).2) (Cert.ReferenceIdeal.ValueP.run (F := Ideal) m ρ)

/-- The ledger's two entries: the table gives the name the value 6588397 / 377487360, which the printed constant is at
    the extended reals. -/
theorem preserves : Cert.preserves_Kernel_KernelIdeal :=
  ⟨IdealRules.named_const.statement Cert.KernelIdeal.κ "pi_f32_over_180" .f32 0x3C8EFA35#32 ((6588397 / 377487360 : ℝ) : EReal) rfl,
   IdealRules.named_const.statement Cert.KernelIdeal.κ "pi_f32_over_180" .f32 0x3C8EFA35#32 ((6588397 / 377487360 : ℝ) : EReal) rfl⟩

/-- Row by row the reference's result is the kernel's, on arrays of reals: the same per-row loss, the two angles one
    number. -/
theorem result_eq (a0 a1 : FVec Ideal Cert.ReferenceIdeal.S4000000x5 .f32)
    (h0 : ∀ i, ∃ r : ℝ, a0 i = (r : EReal)) (h1 : ∀ i, ∃ r : ℝ, a1 i = (r : EReal)) :
    Cert.ReferenceIdeal.ReadP.val_main_v150 (F := Ideal) a0 a1 = Cert.KernelIdeal.FrameProof.lossOf a0 a1 := by
  funext i
  obtain ⟨r, rfl⟩ : ∃ r : Fin 4000000, i = ix1 r := ⟨i 0, eq_ix1 i⟩
  obtain ⟨x, hx⟩ := h0 (ix2 r 4)
  obtain ⟨y, hy⟩ := h1 (ix2 r 4)
  rw [Cert.RefRow.ref_row]
  show _ = Cert.BoxLoss.rowLoss (Cert.BoxLoss.kerAngle (a0 (ix2 r 4))) (Cert.BoxLoss.kerAngle (a1 (ix2 r 4))) (fun j => a0 (ix2 r j)) (fun j => a1 (ix2 r j))
  rw [hx, hy, Cert.BoxLoss.angle_eq, Cert.BoxLoss.angle_eq]

theorem algebraic (hlaw : Cert.KernelIdeal.FrameProof.RowLaw) : Cert.algebraic_KernelIdeal_ReferenceIdeal := by
  intro m ρ m' ρ' hpre hagree
  refine ⟨_, Cert.KernelIdeal.FrameProof.run m ρ hlaw, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  obtain ⟨h0, h1⟩ := Cert.Pre_finite_inputs.real_of_pre _ _ (hpre c)
  exact result_eq _ _ h0 h1

end Cert.Proof.Bridge

end
-- ==== Proof.KerRowBox.lean ====
/-
  The quantities the kernel's body derives from ONE box, read at one row of the block.

  A block is 65536 rows of five numbers (x, y, w, h, angle in degrees).  From a box's row the body takes the angle in
  radians (the named constant times the fifth entry), its cosine and sine, and the two extents clipped to [1e-7, 1e7]
  (entries three and four); from these the half-extents squared and the three covariance entries.  Every operation acts
  lane by lane, so the value at row `r` depends on row `r` of the block only: each lemma below reads one intermediate
  column at `(r, 0)` and names it by the row specification's function of the row's entries.  The body does this twice,
  once for the predicted boxes' block (all the way to the covariance entries) and once for the targets' (to the cosine,
  sine and clipped extents; the later part of the body squares and combines them).
-/
import proofs.«136504_j15762529976491_1_alg».proof.Proof.RowSpec
import proofs.«136504_j15762529976491_1_alg».proof.Proof.KerBodyFn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KerRow

open Idealize.ShloMosaic Idealize.ShloMosaic.ValueIdx Cert.KernelIdeal Cert.KernelIdeal.Gen Cert.BoxLoss

/-- The named constant the body multiplies the angle by reads, on the extended reals, as the word of π over 180. -/
theorem kerC_eq :
    Named.named (F := Ideal) Cert.KernelIdeal.κ "pi_f32_over_180" (φ := .f32) 0x3C8EFA35#32 = Cert.BoxLoss.kerC :=
  IdealRules.named_const.ideal_named_scalar _ _ _ _ rfl

/-! ## The predicted boxes' block -/

/-- Columns three and four, clipped: column `c` of the clipped pair is the clip of entry `2 + c`. -/
theorem pay3_row (x : Vec Ideal S65536x5 .f32) (r : Fin 65536) (c : Fin 2) (k : Fin 5) (hk : k.val = 2 + c.val) :
    k0_pay3 (F := Ideal) x (ix2 r c) = clip (x (ix2 r k)) := by
  unfold k0_pay3
  exact congrArg (fun t => min BIG (max TINY t)) (slice2_axis1_apply 2 x _ r c k hk)

/-- The angle in radians: the constant times the fifth entry. -/
theorem pay4_row (x : Vec Ideal S65536x5 .f32) (r : Fin 65536) :
    k0_pay4 (F := Ideal) x (ix2 r (0 : Fin 1)) = kerAngle (x (ix2 r (4 : Fin 5))) := by
  unfold k0_pay4
  show Named.named (F := Ideal) Cert.KernelIdeal.κ "pi_f32_over_180" (φ := .f32) 0x3C8EFA35#32 * _ = kerC * _
  rw [kerC_eq]
  exact congrArg (fun t => kerC * t) (slice2_axis1_apply 4 x _ r 0 4 rfl)

/-- Its cosine … -/
theorem pay5_row (x : Vec Ideal S65536x5 .f32) (r : Fin 65536) :
    k0_pay5 (F := Ideal) x (ix2 r (0 : Fin 1)) = Ideal.cos (kerAngle (x (ix2 r (4 : Fin 5)))) := by
  unfold k0_pay5
  exact congrArg Ideal.cos (pay4_row x r)

/-- … and sine. -/
theorem pay6_row (x : Vec Ideal S65536x5 .f32) (r : Fin 65536) :
    k0_pay6 (F := Ideal) x (ix2 r (0 : Fin 1)) = Ideal.sin (kerAngle (x (ix2 r (4 : Fin 5)))) := by
  unfold k0_pay6
  exact congrArg Ideal.sin (pay4_row x r)

/-- Half the clipped width, squared. -/
theorem pay7_row (x : Vec Ideal S65536x5 .f32) (r : Fin 65536) :
    k0_pay7 (F := Ideal) x (ix2 r (0 : Fin 1)) = halfSq (x (ix2 r (2 : Fin 5))) := by
  unfold k0_pay7
  have e : extractStridedSlice S65536x1 ![0, 0] (k0_pay3 (F := Ideal) x) Facts₀.slices_S65536x2_o0_0_S65536x1
      (ix2 r (0 : Fin 1)) = clip (x (ix2 r (2 : Fin 5))) :=
    (slice2_axis1_apply 0 (k0_pay3 (F := Ideal) x) _ r 0 0 rfl).trans (pay3_row x r 0 2 rfl)
  exact congrArg (fun t => (HALF * t) * (HALF * t)) e

/-- Half the clipped height, squared. -/
theorem pay8_row (x : Vec Ideal S65536x5 .f32) (r : Fin 65536) :
    k0_pay8 (F := Ideal) x (ix2 r (0 : Fin 1)) = halfSq (x (ix2 r (3 : Fin 5))) := by
  unfold k0_pay8
  have e : extractStridedSlice S65536x1 ![0, 1] (k0_pay3 (F := Ideal) x) Facts₀.slices_S65536x2_o0_1_S65536x1
      (ix2 r (0 : Fin 1)) = clip (x (ix2 r (3 : Fin 5))) :=
    (slice2_axis1_apply 1 (k0_pay3 (F := Ideal) x) _ r 0 1 rfl).trans (pay3_row x r 1 3 rfl)
  exact congrArg (fun t => (HALF * t) * (HALF * t)) e

/-- The covariance's first diagonal entry, a·c² + b·s². -/
theorem pay9_row (x : Vec Ideal S65536x5 .f32) (r : Fin 65536) :
    k0_pay9 (F := Ideal) x (ix2 r (0 : Fin 1))
      = s11 (x (ix2 r (2 : Fin 5))) (x (ix2 r (3 : Fin 5))) (kerAngle (x (ix2 r (4 : Fin 5)))) := by
  unfold k0_pay9
  show ((k0_pay7 (F := Ideal) x (ix2 r (0 : Fin 1)) * k0_pay5 (F := Ideal) x (ix2 r (0 : Fin 1)))
        * k0_pay5 (F := Ideal) x (ix2 r (0 : Fin 1)))
      + ((k0_pay8 (F := Ideal) x (ix2 r (0 : Fin 1)) * k0_pay6 (F := Ideal) x (ix2 r (0 : Fin 1)))
        * k0_pay6 (F := Ideal) x (ix2 r (0 : Fin 1))) = _
  rw [pay7_row, pay8_row, pay5_row, pay6_row]
  rfl

/-- Its off-diagonal entry, (a − b)·s·c. -/
theorem pay10_row (x : Vec Ideal S65536x5 .f32) (r : Fin 65536) :
    k0_pay10 (F := Ideal) x (ix2 r (0 : Fin 1))
      = s12 (x (ix2 r (2 : Fin 5))) (x (ix2 r (3 : Fin 5))) (kerAngle (x (ix2 r (4 : Fin 5)))) := by
  unfold k0_pay10
  show ((k0_pay7 (F := Ideal) x (ix2 r (0 : Fin 1)) - k0_pay8 (F := Ideal) x (ix2 r (0 : Fin 1)))
        * k0_pay6 (F := Ideal) x (ix2 r (0 : Fin 1)))
      * k0_pay5 (F := Ideal) x (ix2 r (0 : Fin 1)) = _
  rw [pay7_row, pay8_row, pay5_row, pay6_row]
  rfl

/-- Its second diagonal entry, a·s² + b·c². -/
theorem pay11_row (x : Vec Ideal S65536x5 .f32) (r : Fin 65536) :
    k0_pay11 (F := Ideal) x (ix2 r (0 : Fin 1))
      = s22 (x (ix2 r (2 : Fin 5))) (x (ix2 r (3 : Fin 5))) (kerAngle (x (ix2 r (4 : Fin 5)))) := by
  unfold k0_pay11
  show ((k0_pay7 (F := Ideal) x (ix2 r (0 : Fin 1)) * k0_pay6 (F := Ideal) x (ix2 r (0 : Fin 1)))
        * k0_pay6 (F := Ideal) x (ix2 r (0 : Fin 1)))
      + ((k0_pay8 (F := Ideal) x (ix2 r (0 : Fin 1)) * k0_pay5 (F := Ideal) x (ix2 r (0 : Fin 1)))
        * k0_pay5 (F := Ideal) x (ix2 r (0 : Fin 1))) = _
  rw [pay7_row, pay8_row, pay5_row, pay6_row]
  rfl

/-- The centre (x, y) of a predicted box: columns one and two. -/
theorem pay2_row (x : Vec Ideal S65536x5 .f32) (r : Fin 65536) (c : Fin 2) (k : Fin 5) (hk : k.val = 0 + c.val) :
    k0_pay2 (F := Ideal) x (ix2 r c) = x (ix2 r k) := by
  unfold k0_pay2
  exact slice2_axis1_apply 0 x _ r c k hk

/-! ## The targets' block -/

/-- The centre of a target box. -/
theorem pay12_row (x : Vec Ideal S65536x5 .f32) (r : Fin 65536) (c : Fin 2) (k : Fin 5) (hk : k.val = 0 + c.val) :
    k0_pay12 (F := Ideal) x (ix2 r c) = x (ix2 r k) := by
  unfold k0_pay12
  exact slice2_axis1_apply 0 x _ r c k hk

/-- Columns three and four of the targets, clipped. -/
theorem pay13_row (x : Vec Ideal S65536x5 .f32) (r : Fin 65536) (c : Fin 2) (k : Fin 5) (hk : k.val = 2 + c.val) :
    k0_pay13 (F := Ideal) x (ix2 r c) = clip (x (ix2 r k)) := by
  unfold k0_pay13
  exact congrArg (fun t => min BIG (max TINY t)) (slice2_axis1_apply 2 x _ r c k hk)

/-- The target's angle in radians. -/
theorem pay14_row (x : Vec Ideal S65536x5 .f32) (r : Fin 65536) :
    k0_pay14 (F := Ideal) x (ix2 r (0 : Fin 1)) = kerAngle (x (ix2 r (4 : Fin 5))) := by
  unfold k0_pay14
  show Named.named (F := Ideal) Cert.KernelIdeal.κ "pi_f32_over_180" (φ := .f32) 0x3C8EFA35#32 * _ = kerC * _
  rw [kerC_eq]
  exact congrArg (fun t => kerC * t) (slice2_axis1_apply 4 x _ r 0 4 rfl)

/-- Its cosine … -/
theorem pay15_row (x : Vec Ideal S65536x5 .f32) (r : Fin 65536) :
    k0_pay15 (F := Ideal) x (ix2 r (0 : Fin 1)) = Ideal.cos (kerAngle (x (ix2 r (4 : Fin 5)))) := by
  unfold k0_pay15
  exact congrArg Ideal.cos (pay14_row x r)

/-- … and sine. -/
theorem pay16_row (x : Vec Ideal S65536x5 .f32) (r : Fin 65536) :
    k0_pay16 (F := Ideal) x (ix2 r (0 : Fin 1)) = Ideal.sin (kerAngle (x (ix2 r (4 : Fin 5)))) := by
  unfold k0_pay16
  exact congrArg Ideal.sin (pay14_row x r)

/-- The target's clipped width … -/
theorem pay17_row (x : Vec Ideal S65536x5 .f32) (r : Fin 65536) :
    k0_pay17 (F := Ideal) x (ix2 r (0 : Fin 1)) = clip (x (ix2 r (2 : Fin 5))) := by
  unfold k0_pay17
  exact (slice2_axis1_apply 0 (k0_pay13 (F := Ideal) x) _ r 0 0 rfl).trans (pay13_row x r 0 2 rfl)

/-- … and clipped height. -/
theorem pay18_row (x : Vec Ideal S65536x5 .f32) (r : Fin 65536) :
    k0_pay18 (F := Ideal) x (ix2 r (0 : Fin 1)) = clip (x (ix2 r (3 : Fin 5))) := by
  unfold k0_pay18
  exact (slice2_axis1_apply 1 (k0_pay13 (F := Ideal) x) _ r 0 1 rfl).trans (pay13_row x r 1 3 rfl)

end Cert.KerRow

end
-- ==== Proof.KerRowMid.lean ====
/-
  The middle of the kernel's body, read at one row: from the cosine, sine and clipped extents of a target box to its
  covariance entries; the determinant roots of both covariances; the entries and the determinant of their sum.

  Every operation here acts lane by lane on (65536 × 1) columns, so each value at row `r` is the same arithmetic on the
  arguments' values at row `r`.  The lemmas are stated over ARBITRARY argument columns: `c`, `s` stand for a cosine and
  sine column, `w`, `h` for the clipped extents, `p11`, `p12`, `p22` for the predicted covariance's entries.
-/
import proofs.«136504_j15762529976491_1_alg».proof.Proof.RowSpec
import proofs.«136504_j15762529976491_1_alg».proof.Proof.KerBodyFn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KerRow

open Idealize.ShloMosaic Idealize.ShloMosaic.ValueIdx Cert.KernelIdeal Cert.KernelIdeal.Gen Cert.BoxLoss

/-! ## The scalar shapes -/

/-- Half of an (already clipped) extent, squared. -/
def sqHalf (e : EReal) : EReal := (HALF * e) * (HALF * e)

/-- The covariance entries from the two squared half-extents `a`, `b` and a cosine and sine. -/
def c11 (a b c s : EReal) : EReal := ((a * c) * c) + ((b * s) * s)
def c12 (a b c s : EReal) : EReal := ((a - b) * s) * c
def c22 (a b c s : EReal) : EReal := ((a * s) * s) + ((b * c) * c)

/-- The row specification's entries are these shapes at the clipped extents and the angle's cosine and sine. -/
theorem s11_eq (w h r : EReal) : s11 w h r = c11 (sqHalf (clip w)) (sqHalf (clip h)) (Ideal.cos r) (Ideal.sin r) := rfl
theorem s12_eq (w h r : EReal) : s12 w h r = c12 (sqHalf (clip w)) (sqHalf (clip h)) (Ideal.cos r) (Ideal.sin r) := rfl
theorem s22_eq (w h r : EReal) : s22 w h r = c22 (sqHalf (clip w)) (sqHalf (clip h)) (Ideal.cos r) (Ideal.sin r) := rfl

/-! ## The target's covariance -/

section
variable (c s w h : FVec Ideal S65536x1 .f32) (i : S65536x1.Idx)

set_option maxHeartbeats 400000 in
theorem pay19_row : k0_pay19 (F := Ideal) w i = sqHalf (w i) := rfl

set_option maxHeartbeats 400000 in
theorem pay20_row : k0_pay20 (F := Ideal) h i = sqHalf (h i) := rfl

set_option maxHeartbeats 400000 in
theorem pay21_row : k0_pay21 (F := Ideal) c s w h i = c11 (sqHalf (w i)) (sqHalf (h i)) (c i) (s i) := rfl

set_option maxHeartbeats 400000 in
theorem pay22_row : k0_pay22 (F := Ideal) c s w h i = c12 (sqHalf (w i)) (sqHalf (h i)) (c i) (s i) := rfl

set_option maxHeartbeats 400000 in
theorem pay23_row : k0_pay23 (F := Ideal) c s w h i = c22 (sqHalf (w i)) (sqHalf (h i)) (c i) (s i) := rfl

/-! ## Four times the root of each covariance's determinant -/

set_option maxHeartbeats 400000 in
theorem pay25_row (p11 p12 p22 : FVec Ideal S65536x1 .f32) :
    k0_pay25 (F := Ideal) p11 p12 p22 i = vol (p11 i) (p12 i) (p12 i) (p22 i) := rfl

set_option maxHeartbeats 400000 in
theorem pay26_row :
    k0_pay26 (F := Ideal) c s w h i
      = vol (c11 (sqHalf (w i)) (sqHalf (h i)) (c i) (s i)) (c12 (sqHalf (w i)) (sqHalf (h i)) (c i) (s i))
            (c12 (sqHalf (w i)) (sqHalf (h i)) (c i) (s i)) (c22 (sqHalf (w i)) (sqHalf (h i)) (c i) (s i)) := rfl

/-! ## The summed covariance: its entries and its determinant -/

set_option maxHeartbeats 400000 in
theorem pay27_row (p11 : FVec Ideal S65536x1 .f32) :
    k0_pay27 (F := Ideal) p11 c s w h i = p11 i + c11 (sqHalf (w i)) (sqHalf (h i)) (c i) (s i) := rfl

set_option maxHeartbeats 400000 in
theorem pay28_row (p12 : FVec Ideal S65536x1 .f32) :
    k0_pay28 (F := Ideal) p12 c s w h i = p12 i + c12 (sqHalf (w i)) (sqHalf (h i)) (c i) (s i) := rfl

set_option maxHeartbeats 400000 in
theorem pay29_row (p22 : FVec Ideal S65536x1 .f32) :
    k0_pay29 (F := Ideal) p22 c s w h i = p22 i + c22 (sqHalf (w i)) (sqHalf (h i)) (c i) (s i) := rfl

set_option maxHeartbeats 400000 in
theorem pay30_row (p11 p12 p22 : FVec Ideal S65536x1 .f32) :
    k0_pay30 (F := Ideal) p11 p12 p22 c s w h i
      = detU (p11 i) (p12 i) (p22 i) (c11 (sqHalf (w i)) (sqHalf (h i)) (c i) (s i))
          (c12 (sqHalf (w i)) (sqHalf (h i)) (c i) (s i)) (c22 (sqHalf (w i)) (sqHalf (h i)) (c i) (s i)) := rfl

end

end Cert.KerRow

end
-- ==== Proof.KerRowSmooth.lean ====
/-
  The smooth-L1 term of the kernel's body, read at one row.

  The body subtracts the two (65536 × 2) blocks of centres, applies smooth L1 lane by lane (quadratic below 1/9, linear
  above), adds the two lanes of each row (a sum over the second axis with no initial value) and views the 65536 sums as
  a (65536 × 1) column.  At row `r` that is the smooth L1 of the x difference plus the smooth L1 of the y difference.
-/
import proofs.«136504_j15762529976491_1_alg».proof.Proof.RowSpec
import proofs.«136504_j15762529976491_1_alg».proof.Proof.KerBodyFn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KerRow

open Idealize.ShloMosaic Idealize.ShloMosaic.ValueIdx Cert.KernelIdeal Cert.KernelIdeal.Gen Cert.BoxLoss

/-- A flat block of 65536 values viewed as one column: entry (r, 0) of the column is entry r of the block (the two
    positions are the same in row-major order). -/
theorem cast_col {α : Type} (v : S65536.Idx → α) (h : S65536.ShapeCasts S65536x1) (r : Fin 65536) :
    shapeCast S65536x1 v h (ix2 r (0 : Fin 1)) = v (ix1 r) :=
  shapeCast_apply v h _ _ (by
    rw [Shape.rowMajor_val_one, Shape.rowMajor_val_two]
    show r.val = r.val * 1 + 0
    omega)

/-- The sum over the two lanes of row `r` of a (65536 × 2) block. -/
theorem lane_sum (v : FVec Ideal S65536x2 .f32) (h : S65536x2.Reduces [1] S65536) (hφ : FKind.Formats .f32)
    (hacc : (0x00000000#32 : BitVec 32) = FKind.add.neutral .f32 hφ) (r : Fin 65536) :
    multiReduction (F := Ideal) .add [1] S65536 v 0x00000000#32 h hφ hacc (ix1 r)
      = v (ix2 r (0 : Fin 2)) + v (ix2 r (1 : Fin 2)) := by
  refine (Ideal.multiReduction_add_single v 0x00000000#32 h hφ hacc (ix1 r)).trans ?_
  refine (Fin.sum_univ_two (fun k : Fin 2 => v (h.lift (ix1 r) k))).trans ?_
  have e : ∀ k : Fin 2, h.lift (ix1 r) k = ix2 r k := fun k =>
    funext fun a => Fin.ext (by match a with | ⟨0, _⟩ => rfl | ⟨1, _⟩ => rfl)
  rw [e 0, e 1]

set_option maxHeartbeats 400000 in
/-- The smooth-L1 column at row `r`: the two coordinates' smooth L1, added. -/
theorem pay24_row (a b : FVec Ideal S65536x2 .f32) (r : Fin 65536) :
    k0_pay24 (F := Ideal) a b (ix2 r (0 : Fin 1))
      = smooth (a (ix2 r (0 : Fin 2))) (b (ix2 r (0 : Fin 2))) + smooth (a (ix2 r (1 : Fin 2))) (b (ix2 r (1 : Fin 2))) := by
  unfold k0_pay24
  refine (cast_col _ _ r).trans ?_
  refine (lane_sum _ _ _ _ r).trans ?_
  rfl

end Cert.KerRow

end
-- ==== Proof.KerRowCov.lean ====
/-
  The last part of the kernel's body, read at one row: the ratio term from the two covariances, added to the smooth-L1
  term, clamped at zero and flattened to one value per row.

  The body forms K = Σp · (Σp + Σt)⁻¹ entry by entry from the predicted covariance's entries, the summed covariance's
  entries `u11`, `u12`, `u22` and its determinant `d` (the inverse of a 2×2 matrix in closed form), then Σp − K·Σp, four times
  the root of its determinant (kept as it is where it is junk), and 1 − Vb / (Vb_p + Vb_t − Vb + eps).  It negates an
  entry by subtracting it from the zero word; on the extended reals that is the negation, which is the only step here
  that is not the same arithmetic read lane by lane.
-/
import proofs.«136504_j15762529976491_1_alg».proof.Proof.RowSpec
import proofs.«136504_j15762529976491_1_alg».proof.Proof.KerBodyFn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KerRow

open Idealize.ShloMosaic Idealize.ShloMosaic.ValueIdx Cert.KernelIdeal Cert.KernelIdeal.Gen Cert.BoxLoss

/-- The ratio term as the body spells it: from the predicted entries, the summed entries, the summed determinant and
    the two determinant roots, with `0 − p` for each negation. -/
def covK (p11 p12 p22 u11 u12 u22 d vp vt : EReal) : EReal :=
  ratioLoss (guard (volS p11 p12 p22
      (Ideal.div ((p11 * u22) - (p12 * u12)) d)
      (Ideal.div (((ZERO - p11) * u12) + (p12 * u11)) d)
      (Ideal.div ((p12 * u22) - (p22 * u12)) d)
      (Ideal.div (((ZERO - p12) * u12) + (p22 * u11)) d))) vp vt

/-- At the summed covariance's entries, determinant and the two roots it is the row specification's covariance part. -/
theorem covK_eq (p11 p12 p22 t11 t12 t22 : EReal) :
    covK p11 p12 p22 (p11 + t11) (p12 + t12) (p22 + t22) (detU p11 p12 p22 t11 t12 t22)
        (vol p11 p12 p12 p22) (vol t11 t12 t12 t22)
      = covLoss p11 p12 p22 t11 t12 t22 := by
  unfold covK covLoss k11 k12 k21 k22
  rw [Cert.BoxLoss.zero_sub, Cert.BoxLoss.zero_sub]

set_option maxHeartbeats 400000 in
/-- The body's last column at an index: the smooth-L1 term plus the ratio term of the arguments at that index. -/
theorem pay31_row (p11 p12 p22 sm vp vt u11 u12 u22 d : FVec Ideal S65536x1 .f32) (i : S65536x1.Idx) :
    k0_pay31 (F := Ideal) p11 p12 p22 sm vp vt u11 u12 u22 d i
      = sm i + covK (p11 i) (p12 i) (p22 i) (u11 i) (u12 i) (u22 i) (d i) (vp i) (vt i) := rfl

/-- A (65536 × 1) column viewed as a flat block: entry r of the block is entry (r, 0) of the column. -/
theorem cast_flat {α : Type} (v : S65536x1.Idx → α) (h : S65536x1.ShapeCasts S65536) (r : Fin 65536) :
    shapeCast S65536 v h (ix1 r) = v (ix2 r (0 : Fin 1)) :=
  shapeCast_apply v h _ _ (by
    rw [Shape.rowMajor_val_one, Shape.rowMajor_val_two]
    show r.val * 1 + 0 = r.val
    omega)

set_option maxHeartbeats 400000 in
/-- The stored block at row `r`: the column's entry clamped below at the given scalar. -/
theorem pay1_row (v : FVec Ideal S65536x1 .f32) (z : Ideal .f32) (r : Fin 65536) :
    k0_pay1 (F := Ideal) v z (ix1 r) = max z (v (ix2 r (0 : Fin 1))) := by
  unfold k0_pay1
  exact cast_flat _ _ r

end Cert.KerRow

end
-- ==== Proof.KerRow.lean ====
/-
  The kernel's body at one row is the row specification's loss.

  The body loads a block of 65536 predicted boxes and a block of 65536 target boxes, and every operation between the
  loads and the store acts row by row: column slices, lane-by-lane arithmetic, one sum over the two lanes of a row, and
  two changes of view between a flat block and a one-column block.  So the value stored at row `r` is a function of row
  `r` of the two blocks alone, and that function is the row loss with each angle in radians obtained as the named
  constant times the angle in degrees.  The proof composes the per-row readings of the body's parts along its data flow.
-/
import proofs.«136504_j15762529976491_1_alg».proof.Proof.KerRowBox
import proofs.«136504_j15762529976491_1_alg».proof.Proof.KerRowMid
import proofs.«136504_j15762529976491_1_alg».proof.Proof.KerRowSmooth
import proofs.«136504_j15762529976491_1_alg».proof.Proof.KerRowCov

noncomputable section

namespace Cert.KerRow

open Idealize.ShloMosaic Idealize.ShloMosaic.ValueIdx Cert.KernelIdeal Cert.KernelIdeal.Gen Cert.BoxLoss

set_option maxHeartbeats 400000 in
/-- The value the body stores at row `r` is the loss of row `r` of the two blocks. -/
theorem ker_row (x0 x1 : Vec Ideal S65536x5 .f32) (r : Fin 65536) :
    Cert.KernelIdeal.Body.bodyOut (F := Ideal) x0 x1 (ix1 r)
      = rowLoss (kerAngle (x0 (ix2 r (4 : Fin 5)))) (kerAngle (x1 (ix2 r (4 : Fin 5))))
          (fun j => x0 (ix2 r j)) (fun j => x1 (ix2 r j)) := by
  unfold Cert.KernelIdeal.Body.bodyOut
  rw [pay1_row, pay31_row, pay24_row, pay25_row, pay26_row, pay27_row, pay28_row, pay29_row, pay30_row,
    pay2_row x0 r 0 0 rfl, pay2_row x0 r 1 1 rfl, pay12_row x1 r 0 0 rfl, pay12_row x1 r 1 1 rfl,
    pay9_row, pay10_row, pay11_row, pay15_row, pay16_row, pay17_row, pay18_row,
    ← s11_eq, ← s12_eq, ← s22_eq, covK_eq]
  rfl

/-- Row-locality: the value stored at row `r` depends on row `r` of the two blocks only. -/
theorem ker_row_congr (x0 x0' x1 x1' : Vec Ideal S65536x5 .f32) (r : Fin 65536)
    (h0 : ∀ j : Fin 5, x0 (ix2 r j) = x0' (ix2 r j)) (h1 : ∀ j : Fin 5, x1 (ix2 r j) = x1' (ix2 r j)) :
    Cert.KernelIdeal.Body.bodyOut (F := Ideal) x0 x1 (ix1 r) = Cert.KernelIdeal.Body.bodyOut (F := Ideal) x0' x1' (ix1 r) := by
  rw [ker_row, ker_row, h0 4, h1 4, show (fun j => x0 (ix2 r j)) = fun j => x0' (ix2 r j) from funext h0,
    show (fun j => x1 (ix2 r j)) = fun j => x1' (ix2 r j) from funext h1]

end Cert.KerRow

end
-- ==== Proof.lean ====
/-
  The certificate's claim.

  Two programs compute, for each of 4,000,000 pairs of oriented boxes (x, y, w, h, angle in degrees), a loss: smooth-L1 of
  the centers plus one minus a ratio of "volumes" 4·√det of the boxes' covariances and of their Kalman-style fusion, clamped
  at zero.  The kernel does it in 62 blocks of 65536 rows (the last overhanging the arrays by all but 2304 rows); the
  reference in 187 whole-array operations.  On the extended reals they are the same per-row function but for how the
  angle in radians is obtained: the kernel multiplies by one constant, which the certificate's table names as the f32 word of
  π over 180, the reference multiplies by that word and divides by 180.  On finite inputs these agree, and the precondition
  makes the inputs finite.  The pieces are in Proof/: the per-row function (RowSpec), each program's row read as it
  (KerRow, RefRow), the angle and the precondition (Angle), the kernel's frame and value from its blocks (KerBody, KerFrame,
  KerValue; KernelBody, KernelFrame at bit patterns), the reference's run (RefReadP, RefRunP), and their assembly (Bridge).
-/
import proofs.«136504_j15762529976491_1_alg».proof.Defs
import proofs.«136504_j15762529976491_1_alg».proof.Proof.Gen.Kernel
import proofs.«136504_j15762529976491_1_alg».proof.Proof.Gen.Kernel.Skeleton
import proofs.«136504_j15762529976491_1_alg».proof.Proof.Gen.Kernel.Launch
import proofs.«136504_j15762529976491_1_alg».proof.Proof.Gen.Kernel.Points
import proofs.«136504_j15762529976491_1_alg».proof.Proof.Gen.Kernel.Frame
import proofs.«136504_j15762529976491_1_alg».proof.Proof.Gen.KernelIdeal
import proofs.«136504_j15762529976491_1_alg».proof.Proof.Gen.KernelIdeal.Skeleton
import proofs.«136504_j15762529976491_1_alg».proof.Proof.Gen.KernelIdeal.Launch
import proofs.«136504_j15762529976491_1_alg».proof.Proof.Gen.KernelIdeal.Points
import proofs.«136504_j15762529976491_1_alg».proof.Proof.Gen.KernelIdeal.Frame
import proofs.«136504_j15762529976491_1_alg».proof.Proof.Gen.ReferenceIdeal
import proofs.«136504_j15762529976491_1_alg».proof.Proof.Gen.Pre_finite_inputs
import proofs.«136504_j15762529976491_1_alg».proof.Proof.Bridge
import proofs.«136504_j15762529976491_1_alg».proof.Proof.KerRow
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Bridge.frame_k, Bridge.frame_ki Cert.KerRow.ker_row, Bridge.frame_ri, Bridge.preserves, Bridge.algebraic Cert.KerRow.ker_row⟩

end Cert.Proof

end
